-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x40 .f32) (main_arg9 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x40 .f32) (main_arg9 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 109
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S1x64, .f32⟩
  | .hbm, ⟨54, _⟩ => ⟨S100000x64, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x64, .f32⟩
  | .hbm, ⟨64, _⟩ => ⟨S1700000x1, .f32⟩
  | .hbm, ⟨65, _⟩ => ⟨S1700000x64, .f32⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x64, .f32⟩
  | .hbm, ⟨100, _⟩ => ⟨S1700000x1, .f32⟩
  | .hbm, ⟨101, _⟩ => ⟨S1700000x64, .f32⟩
  | .hbm, ⟨102, _⟩ => ⟨S1700000x64, .f32⟩
  | .hbm, ⟨103, _⟩ => ⟨S_, .f32⟩
  | .hbm, ⟨104, _⟩ => ⟨S100000x64, .f32⟩
  | .hbm, ⟨105, _⟩ => ⟨S1700000x1, .i32⟩
  | .hbm, ⟨106, _⟩ => ⟨S100000x64, .f32⟩
  | .hbm, ⟨107, _⟩ => ⟨S1x40, .f32⟩
  | .hbm, ⟨108, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x40, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x40.size a ≤ S100000x40.size a
  hwx3_3 : ∀ i : grid3.Coords, EltTy.bits .f32 = 32 ∨ (Rect.block (s := S100000x40) S5000x40.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S5000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1700000x64 : Shape := ⟨2, ![1700000, 64]⟩
abbrev S100000x40 : Shape := ⟨2, ![100000, 40]⟩
abbrev S1x40 : Shape := ⟨2, ![1, 40]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x1, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x64, .f32⟩
  | .hbm, ⟨89, _⟩ => ⟨S1700000x1, .f32⟩
  | .hbm, ⟨90, _⟩ => ⟨S1700000x64, .f32⟩
  | .hbm, ⟨91, _⟩ => ⟨S1700000x64, .f32⟩
  | .hbm, ⟨92, _⟩ => ⟨S_, .f32⟩
  | .hbm, ⟨93, _⟩ => ⟨S100000x64, .f32⟩
  | .hbm, ⟨94, _⟩ => ⟨S1700000x1, .i32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x64, .f32⟩
  | .hbm, ⟨112, _⟩ => ⟨S1700000x1, .f32⟩
  | .hbm, ⟨113, _⟩ => ⟨S1700000x64, .f32⟩
  | .hbm, ⟨114, _⟩ => ⟨S1700000x64, .f32⟩
  | .hbm, ⟨115, _⟩ => ⟨S_, .f32⟩
  | .hbm, ⟨116, _⟩ => ⟨S100000x64, .f32⟩
  | .hbm, ⟨117, _⟩ => ⟨S1700000x1, .i32⟩
  | .hbm, ⟨118, _⟩ => ⟨S100000x64, .f32⟩
  | .hbm, ⟨119, _⟩ => ⟨S_, .f32⟩
  | .hbm, ⟨120, _⟩ => ⟨S100000x64, .f32⟩
  | .hbm, ⟨121, _⟩ => ⟨S100000x64, .f32⟩
  | .hbm, ⟨122, _⟩ => ⟨S100000x40, .f32⟩
  | .hbm, ⟨123, _⟩ => ⟨S1x40, .f32⟩
  | .hbm, ⟨124, _⟩ => ⟨S100000x40, .f32⟩
  | .hbm, ⟨125, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_c_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.RefOps.lean ====
/-
  The reference program as a list of host operations.

  The reference is a straight line of 116 host operations; the three helper functions it calls (a `where` and three
  `relu`s) stand in place at their call sites, over the buffers of each call. `main_eq` says the printed program IS
  that list run in order; `ops_sub` that every operation touches TensorCore buffers only.
-/
import proofs.«177130_j18167711662671_1_alg».proof.ReferenceIdeal
import proofs.«177130_j18167711662671_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 116 operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg2 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v33 (broadcastInDim S1x64 ![1] bcast_S64_S1x64_1 : (⟨S64, .f32⟩ : BufTy).Contents (Elt F) → (⟨S1x64, .f32⟩ : BufTy).Contents (Elt F)),
    unary main_v33 main_v34 (broadcastInDim S100000x64 ![0, 1] bcast_S1x64_S100000x64_0_1 : (⟨S1x64, .f32⟩ : BufTy).Contents (Elt F) → (⟨S100000x64, .f32⟩ : BufTy).Contents (Elt F)),
    binary main_v32 main_v34 main_v35 (addf : (⟨S100000x64, .f32⟩ : BufTy).Contents (Elt F) → (⟨S100000x64, .f32⟩ : BufTy).Contents (Elt F) → (⟨S100000x64, .f32⟩ : BufTy).Contents (Elt F)),
    nullary main_c_7 (constantI S_ 32 0#32),
    unary main_c_7 main_v36 (broadcastInDim S1700000 ![] bcast_S_S1700000 : (⟨S_, .i32⟩ : BufTy).Contents (Elt F) → (⟨S1700000, .i32⟩ : BufTy).Contents (Elt F)),
    binary main_v3 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v38 (broadcastInDim S1700000 ![] bcast_S_S1700000 : (⟨S_, .i32⟩ : BufTy).Contents (Elt F) → (⟨S1700000, .i32⟩ : BufTy).Contents (Elt F)),
    binary main_v3 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v3 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v35 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v43 (broadcastInDim S1700000x1 ![0] bcast_S1700000_S1700000x1_0 : (⟨S1700000, .f32⟩ : BufTy).Contents (Elt F) → (⟨S1700000x1, .f32⟩ : BufTy).Contents (Elt F)),
    unary main_v43 main_v44 (broadcastInDim S1700000x64 ![0, 1] bcast_S1700000x1_S1700000x64_0_1 : (⟨S1700000x1, .f32⟩ : BufTy).Contents (Elt F) → (⟨S1700000x64, .f32⟩ : BufTy).Contents (Elt F)),
    binary main_v42 main_v44 main_v45 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v46 (broadcastInDim S100000x64 ![] bcast_S_S100000x64 : (⟨S_, .f32⟩ : BufTy).Contents (Elt F) → (⟨S100000x64, .f32⟩ : BufTy).Contents (Elt F)),
    unary main_v6 main_v47 (broadcastInDim S1700000x1 ![0] bcast_S1700000_S1700000x1_0 : (⟨S1700000, .i32⟩ : BufTy).Contents (Elt F) → (⟨S1700000x1, .i32⟩ : BufTy).Contents (Elt F)),
    ternary main_v46 main_v47 main_v45 main_v48 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v51 (broadcastInDim S1x64 ![1] bcast_S64_S1x64_1 : (⟨S64, .f32⟩ : BufTy).Contents (Elt F) → (⟨S1x64, .f32⟩ : BufTy).Contents (Elt F)),
    unary main_v51 main_v52 (broadcastInDim S100000x64 ![0, 1] bcast_S1x64_S100000x64_0_1 : (⟨S1x64, .f32⟩ : BufTy).Contents (Elt F) → (⟨S100000x64, .f32⟩ : BufTy).Contents (Elt F)),
    binary main_v50 main_v52 main_v53 (addf : (⟨S100000x64, .f32⟩ : BufTy).Contents (Elt F) → (⟨S100000x64, .f32⟩ : BufTy).Contents (Elt F) → (⟨S100000x64, .f32⟩ : BufTy).Contents (Elt F)),
    nullary main_c_10 (constantI S_ 32 0#32),
    unary main_c_10 main_v54 (broadcastInDim S1700000 ![] bcast_S_S1700000 : (⟨S_, .i32⟩ : BufTy).Contents (Elt F) → (⟨S1700000, .i32⟩ : BufTy).Contents (Elt F)),
    binary main_v3 main_v54 main_v55 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v56 (broadcastInDim S1700000 ![] bcast_S_S1700000 : (⟨S_, .i32⟩ : BufTy).Contents (Elt F) → (⟨S1700000, .i32⟩ : BufTy).Contents (Elt F)),
    binary main_v3 main_v56 main_v57 (addi : (⟨S1700000, .i32⟩ : BufTy).Contents (Elt F) → (⟨S1700000, .i32⟩ : BufTy).Contents (Elt F) → (⟨S1700000, .i32⟩ : BufTy).Contents (Elt F)),
    ternary main_v55 main_v57 main_v3 main_v58 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v58 main_v59 (broadcastInDim S1700000x1 ![0] bcast_S1700000_S1700000x1_0 : (⟨S1700000, .i32⟩ : BufTy).Contents (Elt F) → (⟨S1700000x1, .i32⟩ : BufTy).Contents (Elt F)),
    binary main_v53 main_v59 main_v60 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v61 (broadcastInDim S1700000x1 ![0] bcast_S1700000_S1700000x1_0 : (⟨S1700000, .f32⟩ : BufTy).Contents (Elt F) → (⟨S1700000x1, .f32⟩ : BufTy).Contents (Elt F)),
    unary main_v61 main_v62 (broadcastInDim S1700000x64 ![0, 1] bcast_S1700000x1_S1700000x64_0_1 : (⟨S1700000x1, .f32⟩ : BufTy).Contents (Elt F) → (⟨S1700000x64, .f32⟩ : BufTy).Contents (Elt F)),
    binary main_v60 main_v62 main_v63 (mulf : (⟨S1700000x64, .f32⟩ : BufTy).Contents (Elt F) → (⟨S1700000x64, .f32⟩ : BufTy).Contents (Elt F) → (⟨S1700000x64, .f32⟩ : BufTy).Contents (Elt F)),
    nullary main_cst_12 (constant S_ .f32 0x00000000#32),
    unary main_cst_12 main_v64 (broadcastInDim S100000x64 ![] bcast_S_S100000x64 : (⟨S_, .f32⟩ : BufTy).Contents (Elt F) → (⟨S100000x64, .f32⟩ : BufTy).Contents (Elt F)),
    unary main_v6 main_v65 (broadcastInDim S1700000x1 ![0] bcast_S1700000_S1700000x1_0 : (⟨S1700000, .i32⟩ : BufTy).Contents (Elt F) → (⟨S1700000x1, .i32⟩ : BufTy).Contents (Elt F)),
    ternary main_v64 main_v65 main_v63 main_v66 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v66) (TRef.of (T := ⟨S100000x64, .f32⟩) main_call2_v0) (TRef.of (T := ⟨S100000x64, .f32⟩) main_v67) maximumf,
    binary main_v67 main_arg6 main_v68 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)),
    nullary main_c_13 (constantI S_ 32 0#32),
    unary main_c_13 main_v72 (broadcastInDim S1700000 ![] bcast_S_S1700000 : (⟨S_, .i32⟩ : BufTy).Contents (Elt F) → (⟨S1700000, .i32⟩ : BufTy).Contents (Elt F)),
    binary main_v3 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v74 (broadcastInDim S1700000 ![] bcast_S_S1700000 : (⟨S_, .i32⟩ : BufTy).Contents (Elt F) → (⟨S1700000, .i32⟩ : BufTy).Contents (Elt F)),
    binary main_v3 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v3 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v71 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v79 (broadcastInDim S1700000x1 ![0] bcast_S1700000_S1700000x1_0 : (⟨S1700000, .f32⟩ : BufTy).Contents (Elt F) → (⟨S1700000x1, .f32⟩ : BufTy).Contents (Elt F)),
    unary main_v79 main_v80 (broadcastInDim S1700000x64 ![0, 1] bcast_S1700000x1_S1700000x64_0_1 : (⟨S1700000x1, .f32⟩ : BufTy).Contents (Elt F) → (⟨S1700000x64, .f32⟩ : BufTy).Contents (Elt F)),
    binary main_v78 main_v80 main_v81 (mulf : (⟨S1700000x64, .f32⟩ : BufTy).Contents (Elt F) → (⟨S1700000x64, .f32⟩ : BufTy).Contents (Elt F) → (⟨S1700000x64, .f32⟩ : BufTy).Contents (Elt F)),
    nullary main_cst_15 (constant S_ .f32 0x00000000#32),
    unary main_cst_15 main_v82 (broadcastInDim S100000x64 ![] bcast_S_S100000x64 : (⟨S_, .f32⟩ : BufTy).Contents (Elt F) → (⟨S100000x64, .f32⟩ : BufTy).Contents (Elt F)),
    unary main_v6 main_v83 (broadcastInDim S1700000x1 ![0] bcast_S1700000_S1700000x1_0 : (⟨S1700000, .i32⟩ : BufTy).Contents (Elt F) → (⟨S1700000x1, .i32⟩ : BufTy).Contents (Elt F)),
    ternary main_v82 main_v83 main_v81 main_v84 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v84) (TRef.of (T := ⟨S100000x64, .f32⟩) main_call3_v0) (TRef.of (T := ⟨S100000x64, .f32⟩) main_v85) maximumf,
    binary main_v85 main_arg8 main_v86 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg9 main_v87 (broadcastInDim S1x40 ![1] bcast_S40_S1x40_1 : (⟨S40, .f32⟩ : BufTy).Contents (Elt F) → (⟨S1x40, .f32⟩ : BufTy).Contents (Elt F)),
    unary main_v87 main_v88 (broadcastInDim S100000x40 ![0, 1] bcast_S1x40_S100000x40_0_1 : (⟨S1x40, .f32⟩ : BufTy).Contents (Elt F) → (⟨S100000x40, .f32⟩ : BufTy).Contents (Elt F)),
    binary main_v86 main_v88 main_v89 (addf : (⟨S100000x40, .f32⟩ : BufTy).Contents (Elt F) → (⟨S100000x40, .f32⟩ : BufTy).Contents (Elt F) → (⟨S100000x40, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub ..⟩

end Cert.ReferenceIdeal.RefRun

end
-- ==== Proof.Network.lean ====
/-
  The network both programs compute, as named functions of the arrays (any float instance).

  A graph convolution layer over N = 100000 nodes and E = 1600000 directed edges. Every node also gets a self
  loop, so the edge list has E + N = 1700000 entries: `srcIdx` and `dstIdx` are rows 0 and 1 of `edge_index`
  followed by 0, 1, …, N-1. An index below zero counts from the end (`wrapIdx`: v ↦ v + N when v < 0).
  The degree of a node is the number of list entries that point at it; `invSqrtDeg` is deg^(-1/2) where the
  degree is positive and 0 elsewhere, and the weight of entry k is
      edgeNorm k = invSqrtDeg (src k) · invSqrtDeg (dst k).
  One aggregation sends a feature matrix h to the matrix whose row n is the sum, over the entries k with
  dst k = n, of edgeNorm k · h (src k)  (`aggregate`: a row gather, a scaling of each gathered row, a scatter-add
  into zeros). A dense layer is h ↦ h · W + b with the bias added to every row (`affine…`), and `relu` is the
  entrywise maximum with 0. The network is
      affine (relu (aggregate (affine (relu (aggregate (affine (relu (aggregate (affine x)))))))))
  with one aggregation pattern shared by the three layers (`gcn`).
-/
import proofs.«177130_j18167711662671_1_alg».proof.ReferenceIdeal
import proofs.«177130_j18167711662671_1_alg».proof.Proof.Gen.ReferenceIdeal

noncomputable section

namespace Cert.Gcn

open Idealize.ShloMosaic Cert.ReferenceIdeal Cert.ReferenceIdeal.Gen

variable {F : FTy → Type} [FloatOps F]

/-- Edge sources, then every node once (the self loops). -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Edge targets, then every node once (the self loops). -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative node index counts from the end: v ↦ v + 100000 where v < 0. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32))) (addi v (broadcastInDim S1700000 ![] bcast_S_S1700000 (constantI S_ 32 100000#32))) v

/-- The number of list entries pointing at each node: ones scattered and added at the targets. -/
def degree (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- deg^(-1/2) where the degree is positive, 0 elsewhere (the root is taken of max(deg, 1)). -/
def invSqrtDeg (d : (⟨S1700000, .i32⟩ : BufTy).Contents (Elt F)) : (⟨S100000, .f32⟩ : BufTy).Contents (Elt F) :=
  select (cmpf .ogt (degree d) (broadcastInDim S100000 ![] bcast_S_S100000 (constant S_ .f32 0x00000000#32))) (Host.rsqrt (maximumf (degree d) (broadcastInDim S100000 ![] bcast_S_S100000 (constant S_ .f32 0x3F800000#32)))) (broadcastInDim S100000 ![] bcast_S_S100000 (id (constant S_ .f32 0x00000000#32)))

/-- The weight of list entry k: invSqrtDeg at its source times invSqrtDeg at its target. -/
def edgeNorm (s d : (⟨S1700000, .i32⟩ : BufTy).Contents (Elt F)) : (⟨S1700000, .f32⟩ : BufTy).Contents (Elt F) :=
  mulf (Host.gather gather_S100000_S1700000x1_S1700000_n_0_n_n_0_1_1 (invSqrtDeg d) (broadcastInDim S1700000x1 ![0] bcast_S1700000_S1700000x1_0 (wrapIdx s))) (Host.gather gather_S100000_S1700000x1_S1700000_n_0_n_n_0_1_1 (invSqrtDeg d) (broadcastInDim S1700000x1 ![0] bcast_S1700000_S1700000x1_0 (wrapIdx d)))

/-- Row n of the result is the sum over the entries k with target n of w k · (row (source k) of h). -/
def aggregate (s d : (⟨S1700000, .i32⟩ : BufTy).Contents (Elt F)) (w : (⟨S1700000, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrapIdx s))) (broadcastInDim S1700000x64 ![0, 1] bcast_S1700000x1_S1700000x64_0_1 (broadcastInDim S1700000x1 ![0] bcast_S1700000_S1700000x1_0 w)))

/-- The entrywise maximum with 0. -/
def relu (h : (⟨S100000x64, .f32⟩ : BufTy).Contents (Elt F)) : (⟨S100000x64, .f32⟩ : BufTy).Contents (Elt F) :=
  maximumf h (broadcastInDim S100000x64 ![] bcast_S_S100000x64 (constant S_ .f32 0x00000000#32))

/-- A bias vector as a matrix of one row. -/
def row64 (b : (⟨S64, .f32⟩ : BufTy).Contents (Elt F)) : (⟨S1x64, .f32⟩ : BufTy).Contents (Elt F) :=
  broadcastInDim S1x64 ![1] bcast_S64_S1x64_1 b
def row40 (b : (⟨S40, .f32⟩ : BufTy).Contents (Elt F)) : (⟨S1x40, .f32⟩ : BufTy).Contents (Elt F) :=
  broadcastInDim S1x40 ![1] bcast_S40_S1x40_1 b

/-- x · W + b, the one-row matrix b added to every row: 128 input features to 64. -/
def affine128 (x : (⟨S100000x128, .f32⟩ : BufTy).Contents (Elt F)) (W : (⟨S128x64, .f32⟩ : BufTy).Contents (Elt F))
    (b : (⟨S1x64, .f32⟩ : BufTy).Contents (Elt F)) : (⟨S100000x64, .f32⟩ : BufTy).Contents (Elt F) :=
  addf (Host.dotGeneral dot_S100000x128_S128x64_S100000x64_1_0_0_1_n_n none x W) (broadcastInDim S100000x64 ![0, 1] bcast_S1x64_S100000x64_0_1 b)
/-- h · W + b: 64 features to 64. -/
def affine64 (h : (⟨S100000x64, .f32⟩ : BufTy).Contents (Elt F)) (W : (⟨S64x64, .f32⟩ : BufTy).Contents (Elt F))
    (b : (⟨S1x64, .f32⟩ : BufTy).Contents (Elt F)) : (⟨S100000x64, .f32⟩ : BufTy).Contents (Elt F) :=
  addf (Host.dotGeneral dot_S100000x64_S64x64_S100000x64_1_0_0_1_n_n none h W) (broadcastInDim S100000x64 ![0, 1] bcast_S1x64_S100000x64_0_1 b)
/-- h · W + b: 64 features to the 40 outputs. -/
def affine40 (h : (⟨S100000x64, .f32⟩ : BufTy).Contents (Elt F)) (W : (⟨S64x40, .f32⟩ : BufTy).Contents (Elt F))
    (b : (⟨S1x40, .f32⟩ : BufTy).Contents (Elt F)) : (⟨S100000x40, .f32⟩ : BufTy).Contents (Elt F) :=
  addf (Host.dotGeneral dot_S100000x64_S64x40_S100000x40_1_0_0_1_n_n none h W) (broadcastInDim S100000x40 ![0, 1] bcast_S1x40_S100000x40_0_1 b)

/-- The whole network: three aggregated layers and the output layer. -/
def gcn (e : (⟨S2x1600000, .i32⟩ : BufTy).Contents (Elt F)) (x : (⟨S100000x128, .f32⟩ : BufTy).Contents (Elt F))
    (W0 : (⟨S128x64, .f32⟩ : BufTy).Contents (Elt F)) (b0 : (⟨S64, .f32⟩ : BufTy).Contents (Elt F))
    (W1 : (⟨S64x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F))
    (Wout : (⟨S64x40, .f32⟩ : BufTy).Contents (Elt F)) (bout : (⟨S40, .f32⟩ : BufTy).Contents (Elt F)) :
    (⟨S100000x40, .f32⟩ : BufTy).Contents (Elt F) :=
  affine40 (relu (aggregate (srcIdx e) (dstIdx e) (edgeNorm (srcIdx e) (dstIdx e))
    (affine64 (relu (aggregate (srcIdx e) (dstIdx e) (edgeNorm (srcIdx e) (dstIdx e))
      (affine64 (relu (aggregate (srcIdx e) (dstIdx e) (edgeNorm (srcIdx e) (dstIdx e))
        (affine128 x W0 (row64 b0)))) W1 (row64 b1)))) W2 (row64 b2)))) Wout (row40 bout)

end Cert.Gcn

end
-- ==== Proof.RefRun.lean ====
/-
  The reference program's run, read back.

  Every weakly fair execution of a straight line of host operations terminates, and each buffer then holds what
  folding the operations over the launch memory gives. Unrolling that fold at the result buffer, each operation in
  turn either wrote the buffer being read or did not, and what is left is the operations composed: the network
  `Gcn.gcn` of the ten argument arrays. No operation writes an argument array.
-/
import proofs.«177130_j18167711662671_1_alg».proof.Proof.RefOps
import proofs.«177130_j18167711662671_1_alg».proof.Proof.Network

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather concatenate in
set_option maxRecDepth 16384 in
set_option maxHeartbeats 4000000 in
/-- The fold at the result buffer is the network of the argument arrays: unrolled, every read of a buffer walks back
    to the operation that wrote it, and the operations composed are `Gcn.gcn`'s own text. The gathers and
    scatter-adds stay folded: the equation never looks inside them. -/
theorem result_eq (V : Valuation τ sig (Elt F)) :
    after ops V (main_v89 : DevRef τ sig)
      = Cert.Gcn.gcn (V (main_arg1 : DevRef τ sig)) (V (main_arg0 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  simp only [after_cons, after_nil]
  rfl

/-! ## No operation writes an argument array -/

section Args
attribute [local irreducible] Host.scatterAdd Host.gather concatenate
set_option maxRecDepth 16384
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl
theorem arg6_eq (V : Valuation τ sig (Elt F)) : after ops V (main_arg6 : DevRef τ sig) = V (main_arg6 : DevRef τ sig) := by
  simp only [after_cons, after_nil]
  rfl
theorem arg7_eq (V : Valuation τ sig (Elt F)) : after ops V (main_arg7 : DevRef τ sig) = V (main_arg7 : DevRef τ sig) := by
  simp only [after_cons, after_nil]
  rfl
theorem arg8_eq (V : Valuation τ sig (Elt F)) : after ops V (main_arg8 : DevRef τ sig) = V (main_arg8 : DevRef τ sig) := by
  simp only [after_cons, after_nil]
  rfl
theorem arg9_eq (V : Valuation τ sig (Elt F)) : after ops V (main_arg9 : DevRef τ sig) = V (main_arg9 : DevRef τ sig) := by
  simp only [after_cons, after_nil]
  rfl
end Args

/-- On every device, for any float values, from any memory with zero counters: every weakly fair execution of the
    reference terminates with its result at the network of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = Cert.Gcn.gcn (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v89).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.RefRun

end
-- ==== Proof.KernelStretches.lean ====
/-
  The kernel's host stretches, each read over any contents it is entered with.

  A stretch is a literal list of host operations. Read at one buffer, each operation either wrote that buffer or did
  not, and what is left is the operations composed over what the stretch was entered with: the edge list with its
  self loops, the edge weights and the first bias row from the three stretches before the first region; one
  aggregation and the next bias row from each later stretch. The buffers the later steps read (the edge list, the
  weights, the later layers' arguments) are written by no later stretch. A bias vector reshaped to one row is the
  vector placed along the row. All of it holds at any float instance: no arithmetic is opened here.
-/
import proofs.«177130_j18167711662671_1_alg».proof.Proof.Gen.KernelIdeal.Launch
import proofs.«177130_j18167711662671_1_alg».proof.Proof.Network
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

/-- Unroll a literal stretch of host operations at one buffer: each operation either wrote the buffer read or did
    not, and what is left is the operations composed. -/
macro "unroll_host" : tactic =>
  `(tactic| (simp only [hostOps0, hostOps0_1, hostOps0_2, hostOps1, hostOps2, hostOps3, after_cons, after_nil]; try rfl))

/-! ## A bias vector reshaped to one row is the vector placed along the row -/

theorem reshape_row64 {F : FTy → Type} [FloatOps F] (b : (⟨S64, .f32⟩ : BufTy).Contents (Elt F)) :
    shapeCast S1x64 b shapeCasts_S64_S1x64 = Cert.Gcn.row64 b := by
  funext i
  have hi0 : (i 0).val < 1 := (i 0).isLt
  unfold Cert.Gcn.row64
  refine (shapeCast_apply b _ i (fun a => match a with | ⟨0, _⟩ => ⟨(i 1).val, (i 1).isLt⟩) ?_).trans
    (broadcastInDim_apply _ _ b i (fun a => match a with | ⟨0, _⟩ => ⟨(i 1).val, (i 1).isLt⟩) ?_).symm
  · rw [Shape.rowMajor_val_one, Shape.rowMajor_val_two]
    show (i 1).val = (i 0).val * 64 + (i 1).val
    omega
  · intro a
    match a with
    | ⟨0, _⟩ => show (i 1).val = if (64 : Nat) = 1 then 0 else (i 1).val; rw [if_neg (by decide)]

theorem reshape_row40 {F : FTy → Type} [FloatOps F] (b : (⟨S40, .f32⟩ : BufTy).Contents (Elt F)) :
    shapeCast S1x40 b shapeCasts_S40_S1x40 = Cert.Gcn.row40 b := by
  funext i
  have hi0 : (i 0).val < 1 := (i 0).isLt
  unfold Cert.Gcn.row40
  refine (shapeCast_apply b _ i (fun a => match a with | ⟨0, _⟩ => ⟨(i 1).val, (i 1).isLt⟩) ?_).trans
    (broadcastInDim_apply _ _ b i (fun a => match a with | ⟨0, _⟩ => ⟨(i 1).val, (i 1).isLt⟩) ?_).symm
  · rw [Shape.rowMajor_val_one, Shape.rowMajor_val_two]
    show (i 1).val = (i 0).val * 40 + (i 1).val
    omega
  · intro a
    match a with
    | ⟨0, _⟩ => show (i 1).val = if (40 : Nat) = 1 then 0 else (i 1).val; rw [if_neg (by decide)]

/-! ## The host stretches, each read over any contents it is entered with -/

section Stretches

attribute [local irreducible] Host.scatterAdd Host.gather concatenate

variable {F : FTy → Type} [FloatOps F] (W : Valuation τ sig (Elt F))

/-- The three stretches before the first region, composed. -/
abbrev pre : Valuation τ sig (Elt F) := after hostOps0_2 (after hostOps0_1 (after hostOps0 W))

/-- Edge sources followed by the self loops. -/
theorem pre_v3 : pre W (Proc.devRef .tc main_v3) = Cert.Gcn.srcIdx (W (Proc.devRef .tc main_arg1)) := by unroll_host
/-- Edge targets followed by the self loops. -/
theorem pre_v6 : pre W (Proc.devRef .tc main_v6) = Cert.Gcn.dstIdx (W (Proc.devRef .tc main_arg1)) := by unroll_host
/-- The edge weights. -/
theorem pre_v31 : pre W (Proc.devRef .tc main_v31)
    = Cert.Gcn.edgeNorm (Cert.Gcn.srcIdx (W (Proc.devRef .tc main_arg1))) (Cert.Gcn.dstIdx (W (Proc.devRef .tc main_arg1))) := by unroll_host
/-- The first bias reshaped to one row. -/
theorem pre_v32 : pre W (Proc.devRef .tc main_v32) = shapeCast S1x64 (W (Proc.devRef .tc main_arg3)) shapeCasts_S64_S1x64 := by unroll_host
theorem pre_arg0 : pre W (Proc.devRef .tc main_arg0) = W (Proc.devRef .tc main_arg0) := by unroll_host
theorem pre_arg2 : pre W (Proc.devRef .tc main_arg2) = W (Proc.devRef .tc main_arg2) := by unroll_host
theorem pre_arg4 : pre W (Proc.devRef .tc main_arg4) = W (Proc.devRef .tc main_arg4) := by unroll_host
theorem pre_arg5 : pre W (Proc.devRef .tc main_arg5) = W (Proc.devRef .tc main_arg5) := by unroll_host
theorem pre_arg6 : pre W (Proc.devRef .tc main_arg6) = W (Proc.devRef .tc main_arg6) := by unroll_host
theorem pre_arg7 : pre W (Proc.devRef .tc main_arg7) = W (Proc.devRef .tc main_arg7) := by unroll_host
theorem pre_arg8 : pre W (Proc.devRef .tc main_arg8) = W (Proc.devRef .tc main_arg8) := by unroll_host
theorem pre_arg9 : pre W (Proc.devRef .tc main_arg9) = W (Proc.devRef .tc main_arg9) := by unroll_host

/-! ### Host stretch 1: one aggregation, and the next layer's bias as a one-row matrix -/

/-- The aggregation of the previous layer's output, read off the stretch. -/
theorem agg1 : after hostOps1 W (Proc.devRef .tc main_v46)
    = Cert.Gcn.aggregate (W (Proc.devRef .tc main_v3)) (W (Proc.devRef .tc main_v6)) (W (Proc.devRef .tc main_v31)) (W (Proc.devRef .tc main_v33)) := by
  unroll_host
/-- The bias vector reshaped to one row. -/
theorem bias1 : after hostOps1 W (Proc.devRef .tc main_v47) = shapeCast S1x64 (W (Proc.devRef .tc main_arg5)) shapeCasts_S64_S1x64 := by
  unroll_host
theorem keep1_v3 : after hostOps1 W (Proc.devRef .tc main_v3) = W (Proc.devRef .tc main_v3) := by unroll_host
theorem keep1_v6 : after hostOps1 W (Proc.devRef .tc main_v6) = W (Proc.devRef .tc main_v6) := by unroll_host
theorem keep1_v31 : after hostOps1 W (Proc.devRef .tc main_v31) = W (Proc.devRef .tc main_v31) := by unroll_host
theorem keep1_a4 : after hostOps1 W (Proc.devRef .tc main_arg4) = W (Proc.devRef .tc main_arg4) := by unroll_host
theorem keep1_a5 : after hostOps1 W (Proc.devRef .tc main_arg5) = W (Proc.devRef .tc main_arg5) := by unroll_host
theorem keep1_a6 : after hostOps1 W (Proc.devRef .tc main_arg6) = W (Proc.devRef .tc main_arg6) := by unroll_host
theorem keep1_a7 : after hostOps1 W (Proc.devRef .tc main_arg7) = W (Proc.devRef .tc main_arg7) := by unroll_host
theorem keep1_a8 : after hostOps1 W (Proc.devRef .tc main_arg8) = W (Proc.devRef .tc main_arg8) := by unroll_host
theorem keep1_a9 : after hostOps1 W (Proc.devRef .tc main_arg9) = W (Proc.devRef .tc main_arg9) := by unroll_host

/-! ### Host stretch 2: one aggregation, and the next layer's bias as a one-row matrix -/

/-- The aggregation of the previous layer's output, read off the stretch. -/
theorem agg2 : after hostOps2 W (Proc.devRef .tc main_v61)
    = Cert.Gcn.aggregate (W (Proc.devRef .tc main_v3)) (W (Proc.devRef .tc main_v6)) (W (Proc.devRef .tc main_v31)) (W (Proc.devRef .tc main_v48)) := by
  unroll_host
/-- The bias vector reshaped to one row. -/
theorem bias2 : after hostOps2 W (Proc.devRef .tc main_v62) = shapeCast S1x64 (W (Proc.devRef .tc main_arg7)) shapeCasts_S64_S1x64 := by
  unroll_host
theorem keep2_v3 : after hostOps2 W (Proc.devRef .tc main_v3) = W (Proc.devRef .tc main_v3) := by unroll_host
theorem keep2_v6 : after hostOps2 W (Proc.devRef .tc main_v6) = W (Proc.devRef .tc main_v6) := by unroll_host
theorem keep2_v31 : after hostOps2 W (Proc.devRef .tc main_v31) = W (Proc.devRef .tc main_v31) := by unroll_host
theorem keep2_a4 : after hostOps2 W (Proc.devRef .tc main_arg4) = W (Proc.devRef .tc main_arg4) := by unroll_host
theorem keep2_a5 : after hostOps2 W (Proc.devRef .tc main_arg5) = W (Proc.devRef .tc main_arg5) := by unroll_host
theorem keep2_a6 : after hostOps2 W (Proc.devRef .tc main_arg6) = W (Proc.devRef .tc main_arg6) := by unroll_host
theorem keep2_a7 : after hostOps2 W (Proc.devRef .tc main_arg7) = W (Proc.devRef .tc main_arg7) := by unroll_host
theorem keep2_a8 : after hostOps2 W (Proc.devRef .tc main_arg8) = W (Proc.devRef .tc main_arg8) := by unroll_host
theorem keep2_a9 : after hostOps2 W (Proc.devRef .tc main_arg9) = W (Proc.devRef .tc main_arg9) := by unroll_host

/-! ### Host stretch 3: one aggregation, and the next layer's bias as a one-row matrix -/

/-- The aggregation of the previous layer's output, read off the stretch. -/
theorem agg3 : after hostOps3 W (Proc.devRef .tc main_v76)
    = Cert.Gcn.aggregate (W (Proc.devRef .tc main_v3)) (W (Proc.devRef .tc main_v6)) (W (Proc.devRef .tc main_v31)) (W (Proc.devRef .tc main_v63)) := by
  unroll_host
/-- The bias vector reshaped to one row. -/
theorem bias3 : after hostOps3 W (Proc.devRef .tc main_v77) = shapeCast S1x40 (W (Proc.devRef .tc main_arg9)) shapeCasts_S40_S1x40 := by
  unroll_host
theorem keep3_v3 : after hostOps3 W (Proc.devRef .tc main_v3) = W (Proc.devRef .tc main_v3) := by unroll_host
theorem keep3_v6 : after hostOps3 W (Proc.devRef .tc main_v6) = W (Proc.devRef .tc main_v6) := by unroll_host
theorem keep3_v31 : after hostOps3 W (Proc.devRef .tc main_v31) = W (Proc.devRef .tc main_v31) := by unroll_host
theorem keep3_a4 : after hostOps3 W (Proc.devRef .tc main_arg4) = W (Proc.devRef .tc main_arg4) := by unroll_host
theorem keep3_a5 : after hostOps3 W (Proc.devRef .tc main_arg5) = W (Proc.devRef .tc main_arg5) := by unroll_host
theorem keep3_a6 : after hostOps3 W (Proc.devRef .tc main_arg6) = W (Proc.devRef .tc main_arg6) := by unroll_host
theorem keep3_a7 : after hostOps3 W (Proc.devRef .tc main_arg7) = W (Proc.devRef .tc main_arg7) := by unroll_host
theorem keep3_a8 : after hostOps3 W (Proc.devRef .tc main_arg8) = W (Proc.devRef .tc main_arg8) := by unroll_host
theorem keep3_a9 : after hostOps3 W (Proc.devRef .tc main_arg9) = W (Proc.devRef .tc main_arg9) := by unroll_host

end Stretches

/-! ## What later steps read stays as region 0 found it -/

/-- The edge list, the edge weights and the later layers' weights and biases hold in `W` what they held in `B`. -/
structure Kept {F : FTy → Type} [FloatOps F] (B W : Valuation τ sig (Elt F)) : Prop where
  v3 : W (Proc.devRef .tc main_v3) = B (Proc.devRef .tc main_v3)
  v6 : W (Proc.devRef .tc main_v6) = B (Proc.devRef .tc main_v6)
  v31 : W (Proc.devRef .tc main_v31) = B (Proc.devRef .tc main_v31)
  a4 : W (Proc.devRef .tc main_arg4) = B (Proc.devRef .tc main_arg4)
  a5 : W (Proc.devRef .tc main_arg5) = B (Proc.devRef .tc main_arg5)
  a6 : W (Proc.devRef .tc main_arg6) = B (Proc.devRef .tc main_arg6)
  a7 : W (Proc.devRef .tc main_arg7) = B (Proc.devRef .tc main_arg7)
  a8 : W (Proc.devRef .tc main_arg8) = B (Proc.devRef .tc main_arg8)
  a9 : W (Proc.devRef .tc main_arg9) = B (Proc.devRef .tc main_arg9)

theorem Kept.host1 {F : FTy → Type} [FloatOps F] {B W : Valuation τ sig (Elt F)} (h : Kept B W) : Kept B (after hostOps1 W) :=
  ⟨(keep1_v3 W).trans h.v3, (keep1_v6 W).trans h.v6, (keep1_v31 W).trans h.v31, (keep1_a4 W).trans h.a4, (keep1_a5 W).trans h.a5, (keep1_a6 W).trans h.a6, (keep1_a7 W).trans h.a7, (keep1_a8 W).trans h.a8, (keep1_a9 W).trans h.a9⟩

theorem Kept.host2 {F : FTy → Type} [FloatOps F] {B W : Valuation τ sig (Elt F)} (h : Kept B W) : Kept B (after hostOps2 W) :=
  ⟨(keep2_v3 W).trans h.v3, (keep2_v6 W).trans h.v6, (keep2_v31 W).trans h.v31, (keep2_a4 W).trans h.a4, (keep2_a5 W).trans h.a5, (keep2_a6 W).trans h.a6, (keep2_a7 W).trans h.a7, (keep2_a8 W).trans h.a8, (keep2_a9 W).trans h.a9⟩

theorem Kept.host3 {F : FTy → Type} [FloatOps F] {B W : Valuation τ sig (Elt F)} (h : Kept B W) : Kept B (after hostOps3 W) :=
  ⟨(keep3_v3 W).trans h.v3, (keep3_v6 W).trans h.v6, (keep3_v31 W).trans h.v31, (keep3_a4 W).trans h.a4, (keep3_a5 W).trans h.a5, (keep3_a6 W).trans h.a6, (keep3_a7 W).trans h.a7, (keep3_a8 W).trans h.a8, (keep3_a9 W).trans h.a9⟩

end Cert.KernelIdeal.Walk

end
-- ==== Proof.LibPlainDot.lean ====
/-
  Indices of a plain matrix product, built from an output index and a shared coordinate.

  For an M×K matrix times a K×N matrix, entry (r, c) of the product is the sum over k of l (r, k) · r (k, c).
  `lhsAt i k` is the left operand's index (i 0, k), `rhsAt i k` the right operand's (k, i 1), and `rowAt i` is
  (0, i 1): where a one-row matrix added to every row is read.
-/
import Idealize.ShloMosaic.Lib.ValueIdx

namespace Idealize.ShloMosaic.PlainDot

open Idealize.ShloMosaic

/-- The left operand's index for output index `i` and shared coordinate `k`: (i 0, k). -/
abbrev lhsAt {M K N : Nat} (i : (⟨2, ![M, N]⟩ : Shape).Idx) (k : Fin K) : (⟨2, ![M, K]⟩ : Shape).Idx :=
  fun a => match a with
  | ⟨0, _⟩ => ⟨(i 0).val, (i 0).isLt⟩
  | ⟨1, _⟩ => ⟨k.val, k.isLt⟩

/-- The right operand's index: (k, i 1). -/
abbrev rhsAt {M K N : Nat} (i : (⟨2, ![M, N]⟩ : Shape).Idx) (k : Fin K) : (⟨2, ![K, N]⟩ : Shape).Idx :=
  fun a => match a with
  | ⟨0, _⟩ => ⟨k.val, k.isLt⟩
  | ⟨1, _⟩ => ⟨(i 1).val, (i 1).isLt⟩

/-- Column `i 1` of a one-row matrix: (0, i 1). -/
abbrev rowAt {M N : Nat} (i : (⟨2, ![M, N]⟩ : Shape).Idx) : (⟨2, ![1, N]⟩ : Shape).Idx :=
  fun a => match a with
  | ⟨0, _⟩ => ⟨0, Nat.one_pos⟩
  | ⟨1, _⟩ => ⟨(i 1).val, (i 1).isLt⟩

end Idealize.ShloMosaic.PlainDot
-- ==== Proof.KernelBody.lean ====
/-
  What each kernel body computes, entry by entry, on the extended reals.

  A body loads a block of 5000 rows of its input, the whole weight matrix and the one-row bias, and stores
      (rows, rectified in layers 1 to 3) · W + bias.
  The product into a zero accumulator is a plain sum at the ideal instance and the changes of float format are the
  identity there, so entry (r, c) of what a body stores is  Σ_k x (r, k) · W (k, c) + b (0, c), with x (r, k)
  replaced by max (x (r, k)) 0 in the layers that rectify.
-/
import proofs.«177130_j18167711662671_1_alg».proof.Proof.Gen.KernelIdeal.Skeleton
import proofs.«177130_j18167711662671_1_alg».proof.Proof.LibPlainDot
import Idealize.ShloMosaic.Lib.ValueIdx
import Idealize.ShloMosaic.Lib.Pipeline.Value
import Idealize.ShloMosaic.PureOps.Ideal.Laws

noncomputable section

namespace Cert.KernelIdeal.Body

open Idealize.ShloMosaic Idealize.ShloMosaic.PlainDot Cert.KernelIdeal Cert.KernelIdeal.Gen
open scoped BigOperators

/-- The left operand's index at output index `i` and contraction position `q`: row `i 0`, column `q`. -/
theorem ker128_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem ker128_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
/-- The right operand's index: row `q`, column `i 1`. -/
theorem ker128_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem ker128_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
/-- The contraction's sum re-indexed by the shared coordinate k = 0 … 127: entry (i 0, i 1) of the product is
    the sum over k of l (i 0, k) · r (k, i 1). -/
theorem ker128_sum (l : S5000x128.Idx → EReal) (r : S128x64.Idx → EReal) (i : S5000x64.Idx) :
    ∑ q : dot_S5000x128_S128x64_S5000x64_1_0_0_1_n_n.contr.Idx, l (dot_S5000x128_S128x64_S5000x64_1_0_0_1_n_n.lhsIdx i q) * r (dot_S5000x128_S128x64_S5000x64_1_0_0_1_n_n.rhsIdx i q)
      = ∑ k : Fin 128, l (lhsAt i k) * r (rhsAt i k) := by
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  refine congrArg₂ (· * ·) (congrArg l (funext fun a => Fin.ext ?_)) (congrArg r (funext fun a => Fin.ext ?_))
  · match a with
    | ⟨0, _⟩ => exact ker128_l0 _ _
    | ⟨1, _⟩ => exact (ker128_l1 _ _).trans hk
  · match a with
    | ⟨0, _⟩ => exact (ker128_r0 _ _).trans hk
    | ⟨1, _⟩ => exact ker128_r1 _ _

/-- The left operand's index at output index `i` and contraction position `q`: row `i 0`, column `q`. -/
theorem ker64_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem ker64_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: row `q`, column `i 1`. -/
theorem ker64_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem ker64_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- The contraction's sum re-indexed by the shared coordinate k = 0 … 63: entry (i 0, i 1) of the product is
    the sum over k of l (i 0, k) · r (k, i 1). -/
theorem ker64_sum (l : S5000x64.Idx → EReal) (r : S64x64.Idx → EReal) (i : S5000x64.Idx) :
    ∑ q : dot_S5000x64_S64x64_S5000x64_1_0_0_1_n_n.contr.Idx, l (dot_S5000x64_S64x64_S5000x64_1_0_0_1_n_n.lhsIdx i q) * r (dot_S5000x64_S64x64_S5000x64_1_0_0_1_n_n.rhsIdx i q)
      = ∑ k : Fin 64, l (lhsAt i k) * r (rhsAt i k) := by
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  refine congrArg₂ (· * ·) (congrArg l (funext fun a => Fin.ext ?_)) (congrArg r (funext fun a => Fin.ext ?_))
  · match a with
    | ⟨0, _⟩ => exact ker64_l0 _ _
    | ⟨1, _⟩ => exact (ker64_l1 _ _).trans hk
  · match a with
    | ⟨0, _⟩ => exact (ker64_r0 _ _).trans hk
    | ⟨1, _⟩ => exact ker64_r1 _ _

/-- The left operand's index at output index `i` and contraction position `q`: row `i 0`, column `q`. -/
theorem ker40_l0 (i : S5000x40.Idx) (q : dot_S5000x64_S64x40_S5000x40_1_0_0_1_n_n.contr.Idx) : (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem ker40_l1 (i : S5000x40.Idx) (q : dot_S5000x64_S64x40_S5000x40_1_0_0_1_n_n.contr.Idx) : (dot_S5000x64_S64x40_S5000x40_1_0_0_1_n_n.lhsIdx i q 1).val = (q ⟨0, by decide⟩).val :=
  dot_S5000x64_S64x40_S5000x40_1_0_0_1_n_n.lhsIdx_val_of_single rfl i q
/-- The right operand's index: row `q`, column `i 1`. -/
theorem ker40_r0 (i : S5000x40.Idx) (q : dot_S5000x64_S64x40_S5000x40_1_0_0_1_n_n.contr.Idx) : (dot_S5000x64_S64x40_S5000x40_1_0_0_1_n_n.rhsIdx i q 0).val = (q ⟨0, by decide⟩).val :=
  dot_S5000x64_S64x40_S5000x40_1_0_0_1_n_n.rhsIdx_val_of_single rfl i q
theorem ker40_r1 (i : S5000x40.Idx) (q : dot_S5000x64_S64x40_S5000x40_1_0_0_1_n_n.contr.Idx) : (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl
/-- The contraction's sum re-indexed by the shared coordinate k = 0 … 63: entry (i 0, i 1) of the product is
    the sum over k of l (i 0, k) · r (k, i 1). -/
theorem ker40_sum (l : S5000x64.Idx → EReal) (r : S64x40.Idx → EReal) (i : S5000x40.Idx) :
    ∑ q : dot_S5000x64_S64x40_S5000x40_1_0_0_1_n_n.contr.Idx, l (dot_S5000x64_S64x40_S5000x40_1_0_0_1_n_n.lhsIdx i q) * r (dot_S5000x64_S64x40_S5000x40_1_0_0_1_n_n.rhsIdx i q)
      = ∑ k : Fin 64, l (lhsAt i k) * r (rhsAt i k) := by
  rw [← Equiv.sum_comp (ValueIdx.contrEquiv1 dot_S5000x64_S64x40_S5000x40_1_0_0_1_n_n 64 rfl rfl).symm]
  refine Finset.sum_congr rfl fun k _ => ?_
  have hk := ValueIdx.contrEquiv1_symm_val dot_S5000x64_S64x40_S5000x40_1_0_0_1_n_n 64 rfl rfl k
  refine congrArg₂ (· * ·) (congrArg l (funext fun a => Fin.ext ?_)) (congrArg r (funext fun a => Fin.ext ?_))
  · match a with
    | ⟨0, _⟩ => exact ker40_l0 _ _
    | ⟨1, _⟩ => exact (ker40_l1 _ _).trans hk
  · match a with
    | ⟨0, _⟩ => exact (ker40_r0 _ _).trans hk
    | ⟨1, _⟩ => exact ker40_r1 _ _

/-- Body 0 at entry (r, c) of its row block: the block row times the weight column, plus the bias. -/
theorem pay0_apply (x0 : Vec Ideal S5000x128 .f32) (x1 : Vec Ideal S128x64 .f32) (x2 : Vec Ideal S1x64 .f32) (j : S5000x64.Idx) :
    k0_pay1 (F := Ideal) x0 x1 x2 j = (∑ k : Fin 128, x0 (lhsAt j k) * x1 (rhsAt j k)) + x2 (rowAt j) := by
  unfold k0_pay1
  refine (ValueIdx.addf_apply _ _ j).trans ?_
  refine congrArg₂ (· + ·) ?_ ?_
  · refine (Ideal.matmul_constant_zero_apply _ none _ _ j).trans ?_
    exact ker128_sum x0 x1 j
  · refine (congrArg (fun v => broadcastTo S5000x64 v broadcasts_S1x64_S5000x64 j) (shapeCast_self x2 shapeCasts_S1x64_S1x64)).trans ?_
    exact broadcastTo_apply x2 broadcasts_S1x64_S5000x64 j (rowAt j) (fun a => match a with
      | ⟨0, _⟩ => by show 0 = if (1 : Nat) = 1 then 0 else _; rw [if_pos rfl]
      | ⟨1, _⟩ => by show (j 1).val = if (64 : Nat) = 1 then 0 else (j 1).val; rw [if_neg (by decide)])

/-- Body 1 at entry (r, c) of its row block: the rectified block row times the weight column, plus the bias. -/
theorem pay1_apply (x0 : Vec Ideal S5000x64 .f32) (x1 : Vec Ideal S64x64 .f32) (x2 : Vec Ideal S1x64 .f32) (j : S5000x64.Idx) :
    k1_pay1 (F := Ideal) x0 x1 x2 j
      = (∑ k : Fin 64, max (x0 (lhsAt j k)) (Ideal.ofBits .f32 0x00000000#32) * x1 (rhsAt j k)) + x2 (rowAt j) := by
  unfold k1_pay1
  refine (ValueIdx.addf_apply _ _ j).trans ?_
  refine congrArg₂ (· + ·) ?_ ?_
  · refine (Ideal.matmul_constant_zero_apply _ none _ _ j).trans ?_
    refine (ker64_sum _ _ j).trans ?_
    refine Finset.sum_congr rfl fun k _ => congrArg₂ (· * ·) ?_ rfl
    show max (shapeCast S5000x64 x0 shapeCasts_S5000x64_S5000x64 (lhsAt j k)) _ = _
    rw [shapeCast_self]
    rfl
  · refine (congrArg (fun v => broadcastTo S5000x64 v broadcasts_S1x64_S5000x64 j) (shapeCast_self x2 shapeCasts_S1x64_S1x64)).trans ?_
    exact broadcastTo_apply x2 broadcasts_S1x64_S5000x64 j (rowAt j) (fun a => match a with
      | ⟨0, _⟩ => by show 0 = if (1 : Nat) = 1 then 0 else _; rw [if_pos rfl]
      | ⟨1, _⟩ => by show (j 1).val = if (64 : Nat) = 1 then 0 else (j 1).val; rw [if_neg (by decide)])

/-- Body 2 at entry (r, c) of its row block: the rectified block row times the weight column, plus the bias. -/
theorem pay2_apply (x0 : Vec Ideal S5000x64 .f32) (x1 : Vec Ideal S64x64 .f32) (x2 : Vec Ideal S1x64 .f32) (j : S5000x64.Idx) :
    k2_pay1 (F := Ideal) x0 x1 x2 j
      = (∑ k : Fin 64, max (x0 (lhsAt j k)) (Ideal.ofBits .f32 0x00000000#32) * x1 (rhsAt j k)) + x2 (rowAt j) := by
  unfold k2_pay1
  refine (ValueIdx.addf_apply _ _ j).trans ?_
  refine congrArg₂ (· + ·) ?_ ?_
  · refine (Ideal.matmul_constant_zero_apply _ none _ _ j).trans ?_
    refine (ker64_sum _ _ j).trans ?_
    refine Finset.sum_congr rfl fun k _ => congrArg₂ (· * ·) ?_ rfl
    show max (shapeCast S5000x64 x0 shapeCasts_S5000x64_S5000x64 (lhsAt j k)) _ = _
    rw [shapeCast_self]
    rfl
  · refine (congrArg (fun v => broadcastTo S5000x64 v broadcasts_S1x64_S5000x64 j) (shapeCast_self x2 shapeCasts_S1x64_S1x64)).trans ?_
    exact broadcastTo_apply x2 broadcasts_S1x64_S5000x64 j (rowAt j) (fun a => match a with
      | ⟨0, _⟩ => by show 0 = if (1 : Nat) = 1 then 0 else _; rw [if_pos rfl]
      | ⟨1, _⟩ => by show (j 1).val = if (64 : Nat) = 1 then 0 else (j 1).val; rw [if_neg (by decide)])

/-- Body 3 at entry (r, c) of its row block: the rectified block row times the weight column, plus the bias. -/
theorem pay3_apply (x0 : Vec Ideal S5000x64 .f32) (x1 : Vec Ideal S64x40 .f32) (x2 : Vec Ideal S1x40 .f32) (j : S5000x40.Idx) :
    k3_pay1 (F := Ideal) x0 x1 x2 j
      = (∑ k : Fin 64, max (x0 (lhsAt j k)) (Ideal.ofBits .f32 0x00000000#32) * x1 (rhsAt j k)) + x2 (rowAt j) := by
  unfold k3_pay1
  refine (ValueIdx.addf_apply _ _ j).trans ?_
  refine congrArg₂ (· + ·) ?_ ?_
  · refine (Ideal.matmul_constant_zero_apply _ none _ _ j).trans ?_
    refine (ker40_sum _ _ j).trans ?_
    refine Finset.sum_congr rfl fun k _ => congrArg₂ (· * ·) ?_ rfl
    show max (shapeCast S5000x64 x0 shapeCasts_S5000x64_S5000x64 (lhsAt j k)) _ = _
    rw [shapeCast_self]
    rfl
  · refine (congrArg (fun v => broadcastTo S5000x40 v broadcasts_S1x40_S5000x40 j) (shapeCast_self x2 shapeCasts_S1x40_S1x40)).trans ?_
    exact broadcastTo_apply x2 broadcasts_S1x40_S5000x40 j (rowAt j) (fun a => match a with
      | ⟨0, _⟩ => by show 0 = if (1 : Nat) = 1 then 0 else _; rw [if_pos rfl]
      | ⟨1, _⟩ => by show (j 1).val = if (40 : Nat) = 1 then 0 else (j 1).val; rw [if_neg (by decide)])

end Cert.KernelIdeal.Body

end
-- ==== Proof.NetworkAt.lean ====
/-
  The dense layers and the rectifier read at an index, on the extended reals.

  Entry (r, c) of `affine… X W B` is  Σ_k X (r, k) · W (k, c)  +  B (0, c): the host's product is a plain sum at the
  ideal instance, re-indexed here by the shared coordinate, and the bias matrix of one row is read at its column.
  Entry i of `relu h` is max (h i) 0.
-/
import proofs.«177130_j18167711662671_1_alg».proof.Proof.Network
import proofs.«177130_j18167711662671_1_alg».proof.Proof.LibPlainDot
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.PlainDot Cert.ReferenceIdeal Cert.ReferenceIdeal.Gen
open scoped BigOperators

/-- The left operand's index at output index `i` and contraction position `q`: row `i 0`, column `q`. -/
theorem ref128_l0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem ref128_l1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
/-- The right operand's index: row `q`, column `i 1`. -/
theorem ref128_r0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem ref128_r1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl
/-- The contraction's sum re-indexed by the shared coordinate k = 0 … 127: entry (i 0, i 1) of the product is
    the sum over k of l (i 0, k) · r (k, i 1). -/
theorem ref128_sum (l : S100000x128.Idx → EReal) (r : S128x64.Idx → EReal) (i : S100000x64.Idx) :
    ∑ q : dot_S100000x128_S128x64_S100000x64_1_0_0_1_n_n.contr.Idx, l (dot_S100000x128_S128x64_S100000x64_1_0_0_1_n_n.lhsIdx i q) * r (dot_S100000x128_S128x64_S100000x64_1_0_0_1_n_n.rhsIdx i q)
      = ∑ k : Fin 128, l (lhsAt i k) * r (rhsAt i k) := by
  rw [← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  refine congrArg₂ (· * ·) (congrArg l (funext fun a => Fin.ext ?_)) (congrArg r (funext fun a => Fin.ext ?_))
  · match a with
    | ⟨0, _⟩ => exact ref128_l0 _ _
    | ⟨1, _⟩ => exact (ref128_l1 _ _).trans hk
  · match a with
    | ⟨0, _⟩ => exact (ref128_r0 _ _).trans hk
    | ⟨1, _⟩ => exact ref128_r1 _ _

/-- The left operand's index at output index `i` and contraction position `q`: row `i 0`, column `q`. -/
theorem ref64_l0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem ref64_l1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
/-- The right operand's index: row `q`, column `i 1`. -/
theorem ref64_r0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem ref64_r1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl
/-- The contraction's sum re-indexed by the shared coordinate k = 0 … 63: entry (i 0, i 1) of the product is
    the sum over k of l (i 0, k) · r (k, i 1). -/
theorem ref64_sum (l : S100000x64.Idx → EReal) (r : S64x64.Idx → EReal) (i : S100000x64.Idx) :
    ∑ q : dot_S100000x64_S64x64_S100000x64_1_0_0_1_n_n.contr.Idx, l (dot_S100000x64_S64x64_S100000x64_1_0_0_1_n_n.lhsIdx i q) * r (dot_S100000x64_S64x64_S100000x64_1_0_0_1_n_n.rhsIdx i q)
      = ∑ k : Fin 64, l (lhsAt i k) * r (rhsAt i k) := by
  rw [← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  refine congrArg₂ (· * ·) (congrArg l (funext fun a => Fin.ext ?_)) (congrArg r (funext fun a => Fin.ext ?_))
  · match a with
    | ⟨0, _⟩ => exact ref64_l0 _ _
    | ⟨1, _⟩ => exact (ref64_l1 _ _).trans hk
  · match a with
    | ⟨0, _⟩ => exact (ref64_r0 _ _).trans hk
    | ⟨1, _⟩ => exact ref64_r1 _ _

/-- The left operand's index at output index `i` and contraction position `q`: row `i 0`, column `q`. -/
theorem ref40_l0 (i : S100000x40.Idx) (q : dot_S100000x64_S64x40_S100000x40_1_0_0_1_n_n.contr.Idx) : (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
theorem ref40_l1 (i : S100000x40.Idx) (q : dot_S100000x64_S64x40_S100000x40_1_0_0_1_n_n.contr.Idx) : (dot_S100000x64_S64x40_S100000x40_1_0_0_1_n_n.lhsIdx i q 1).val = (q ⟨0, by decide⟩).val :=
  dot_S100000x64_S64x40_S100000x40_1_0_0_1_n_n.lhsIdx_val_of_single rfl i q
/-- The right operand's index: row `q`, column `i 1`. -/
theorem ref40_r0 (i : S100000x40.Idx) (q : dot_S100000x64_S64x40_S100000x40_1_0_0_1_n_n.contr.Idx) : (dot_S100000x64_S64x40_S100000x40_1_0_0_1_n_n.rhsIdx i q 0).val = (q ⟨0, by decide⟩).val :=
  dot_S100000x64_S64x40_S100000x40_1_0_0_1_n_n.rhsIdx_val_of_single rfl i q
theorem ref40_r1 (i : S100000x40.Idx) (q : dot_S100000x64_S64x40_S100000x40_1_0_0_1_n_n.contr.Idx) : (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl
/-- The contraction's sum re-indexed by the shared coordinate k = 0 … 63: entry (i 0, i 1) of the product is
    the sum over k of l (i 0, k) · r (k, i 1). -/
theorem ref40_sum (l : S100000x64.Idx → EReal) (r : S64x40.Idx → EReal) (i : S100000x40.Idx) :
    ∑ q : dot_S100000x64_S64x40_S100000x40_1_0_0_1_n_n.contr.Idx, l (dot_S100000x64_S64x40_S100000x40_1_0_0_1_n_n.lhsIdx i q) * r (dot_S100000x64_S64x40_S100000x40_1_0_0_1_n_n.rhsIdx i q)
      = ∑ k : Fin 64, l (lhsAt i k) * r (rhsAt i k) := by
  rw [← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  refine congrArg₂ (· * ·) (congrArg l (funext fun a => Fin.ext ?_)) (congrArg r (funext fun a => Fin.ext ?_))
  · match a with
    | ⟨0, _⟩ => exact ref40_l0 _ _
    | ⟨1, _⟩ => exact (ref40_l1 _ _).trans hk
  · match a with
    | ⟨0, _⟩ => exact (ref40_r0 _ _).trans hk
    | ⟨1, _⟩ => exact ref40_r1 _ _

/-- `affine128` at an index, on the extended reals: the sum over the 128 input features plus the bias of the column. -/
theorem affine128_apply (X : (⟨S100000x128, .f32⟩ : BufTy).Contents (Elt Ideal)) (W : (⟨S128x64, .f32⟩ : BufTy).Contents (Elt Ideal))
    (B : (⟨S1x64, .f32⟩ : BufTy).Contents (Elt Ideal)) (i : S100000x64.Idx) :
    affine128 (F := Ideal) X W B i = (∑ k : Fin 128, X (lhsAt i k) * W (rhsAt i k)) + B (rowAt i) := by
  unfold affine128
  refine (ValueIdx.addf_apply _ _ i).trans ?_
  refine congrArg₂ (· + ·) ?_ ?_
  · simp only [Host.dotGeneral]
    rw [Ideal.dotGeneral_apply]
    exact ref128_sum X W i
  · exact broadcastInDim_apply _ bcast_S1x64_S100000x64_0_1 B i (rowAt i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])

/-- `affine64` at an index, on the extended reals: the sum over the 64 input features plus the bias of the column. -/
theorem affine64_apply (X : (⟨S100000x64, .f32⟩ : BufTy).Contents (Elt Ideal)) (W : (⟨S64x64, .f32⟩ : BufTy).Contents (Elt Ideal))
    (B : (⟨S1x64, .f32⟩ : BufTy).Contents (Elt Ideal)) (i : S100000x64.Idx) :
    affine64 (F := Ideal) X W B i = (∑ k : Fin 64, X (lhsAt i k) * W (rhsAt i k)) + B (rowAt i) := by
  unfold affine64
  refine (ValueIdx.addf_apply _ _ i).trans ?_
  refine congrArg₂ (· + ·) ?_ ?_
  · simp only [Host.dotGeneral]
    rw [Ideal.dotGeneral_apply]
    exact ref64_sum X W i
  · exact broadcastInDim_apply _ bcast_S1x64_S100000x64_0_1 B i (rowAt i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)])

/-- `affine40` at an index, on the extended reals: the sum over the 64 input features plus the bias of the column. -/
theorem affine40_apply (X : (⟨S100000x64, .f32⟩ : BufTy).Contents (Elt Ideal)) (W : (⟨S64x40, .f32⟩ : BufTy).Contents (Elt Ideal))
    (B : (⟨S1x40, .f32⟩ : BufTy).Contents (Elt Ideal)) (i : S100000x40.Idx) :
    affine40 (F := Ideal) X W B i = (∑ k : Fin 64, X (lhsAt i k) * W (rhsAt i k)) + B (rowAt i) := by
  unfold affine40
  refine (ValueIdx.addf_apply _ _ i).trans ?_
  refine congrArg₂ (· + ·) ?_ ?_
  · simp only [Host.dotGeneral]
    rw [Ideal.dotGeneral_apply]
    exact ref40_sum X W i
  · exact broadcastInDim_apply _ bcast_S1x40_S100000x40_0_1 B i (rowAt i) (fun a => match a with
      | ⟨0, _⟩ => by show 0 = if (1 : Nat) = 1 then 0 else (i 0).val; rw [if_pos rfl]
      | ⟨1, _⟩ => by show (i 1).val = if (40 : Nat) = 1 then 0 else (i 1).val; rw [if_neg (by decide)])

/-- The rectifier at an index: the maximum of the entry and the zero word's value. -/
theorem relu_apply (h : (⟨S100000x64, .f32⟩ : BufTy).Contents (Elt Ideal)) (i : S100000x64.Idx) :
    relu (F := Ideal) h i = max (h i) (Ideal.ofBits .f32 0x00000000#32) := rfl

end Cert.Gcn

end
-- ==== Proof.Layer0.lean ====
/-
  Region 0 of the kernel: what its output array holds after the run.

  The region's grid has 20 points; point t loads rows 5000·t … 5000·t + 4999 of its input array, the whole weight
  matrix and the one-row bias, and writes back the same rows of its output array. A block's entry (r, c) is
  Σ_k x (5000·t + r, k) · W (k, c) + b (0, c), which is entry (5000·t + r, c) of the dense layer of the whole
  arrays; the 20 row blocks tile the output array, so after the last point the array IS that dense layer.
-/
import proofs.«177130_j18167711662671_1_alg».proof.Proof.Gen.KernelIdeal.Frame
import proofs.«177130_j18167711662671_1_alg».proof.Proof.KernelBody
import proofs.«177130_j18167711662671_1_alg».proof.Proof.NetworkAt

set_option maxRecDepth 16384

noncomputable section

namespace Cert.KernelIdeal.Layer0

open Idealize.ShloMosaic Idealize.ShloMosaic.TcCoe Idealize.ShloMosaic.PlainDot Idealize.SL.Sem
open Cert.KernelIdeal Cert.KernelIdeal.Gen Cert.KernelIdeal.Body
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the input's and the output's row block is the point's number, every
    other block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is row block `t` of the dense layer of the arrays as the region found them. -/
theorem flushed_eq (c : Dev nD) (t : Fin cfg0.N) :
    (dat0 V c).flushed 3 t = ((cfg0.win 3).blk t).view.read (Elt Ideal) (Cert.Gcn.affine128 (V c main_arg0) (V c main_arg2) (V c main_v32)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  obtain ⟨e0, e1, e2, e3, e4, e5, e6, e7⟩ := idx_facts t
  funext j
  show k0_pay1 (iblk0 V c 0 t) (iblk0 V c 1 t) (iblk0 V c 2 t) j = (Cert.Gcn.affine128 (V c main_arg0) (V c main_arg2) (V c main_v32)) (((cfg0.win 3).blk t).view.emb j)
  refine (pay0_apply _ _ _ j).trans ?_
  refine Eq.trans ?_ (Cert.Gcn.affine128_apply _ _ _ _).symm
  refine congrArg₂ (· + ·) (Finset.sum_congr rfl fun k _ => congrArg₂ (· * ·) ?_ ?_) ?_
  · -- the input block's row r is row 5000·t + r of the array
    show V c main_arg0 (((cfg0.win 0).blk t).view.emb (lhsAt j k)) = V c main_arg0 (lhsAt (((cfg0.win 3).blk t).view.emb j) k)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · -- the weight block is the whole matrix
    show V c main_arg2 (((cfg0.win 1).blk t).view.emb (rhsAt j k)) = V c main_arg2 (rhsAt (((cfg0.win 3).blk t).view.emb j) k)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_3.index t (1 : Fin 2) * 64 + 1 * (j 1).val; omega
  · -- the bias block is the whole one-row matrix
    show V c main_v32 (((cfg0.win 2).blk t).view.emb (rowAt j)) = V c main_v32 (rowAt (((cfg0.win 3).blk t).view.emb j))
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v33).slice (win0_3.rect t)).set ↔ _
  rw [View.set_slice_whole, Rect.mem_set_unit]
  exact Iff.rfl

/-- Row r of the output array is in the block of point r / 5000, and every point writes its block back. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 5000 < cfg0.N := by rw [show cfg0.N = 20 from N_0]; omega
  obtain ⟨-, -, -, -, -, -, e6, e7⟩ := idx_facts ⟨(i 0).val / 5000, hN⟩
  refine ⟨⟨(i 0).val / 5000, hN⟩, flush0_3 _, ?_⟩
  rw [mem_blk]
  intro a
  match a with
  | ⟨0, _⟩ => show win0_3.index ⟨(i 0).val / 5000, hN⟩ (0 : Fin 2) * 5000 ≤ (i 0).val ∧ (i 0).val < win0_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win0_3.index ⟨(i 0).val / 5000, hN⟩ (1 : Fin 2) * 64 ≤ (i 1).val ∧ (i 1).val < win0_3.index ⟨(i 0).val / 5000, hN⟩ (1 : Fin 2) * 64 + 64; rw [e7]; omega

/-- THE OUTPUT ARRAY after the region: the dense layer of the arrays the region found. -/
theorem final (c : Dev nD) : (dat0 V c).arrAt 3 cfg0.N = Cert.Gcn.affine128 (V c main_arg0) (V c main_arg2) (V c main_v32) :=
  (dat0 V c).arrAt_eq_of_cover 3 (Cert.Gcn.affine128 (V c main_arg0) (V c main_arg2) (V c main_v32)) (fun t _ => flushed_eq V c t) (cover)

end Cert.KernelIdeal.Layer0

end
-- ==== Proof.Layer1.lean ====
/-
  Region 1 of the kernel: what its output array holds after the run.

  The region's grid has 20 points; point t loads rows 5000·t … 5000·t + 4999 of its input array, the whole weight
  matrix and the one-row bias, and writes back the same rows of its output array. A block's entry (r, c) is
  Σ_k max (x (5000·t + r, k)) 0 · W (k, c) + b (0, c), which is entry (5000·t + r, c) of the dense layer of the whole
  arrays; the 20 row blocks tile the output array, so after the last point the array IS that dense layer of the
  rectified input.
-/
import proofs.«177130_j18167711662671_1_alg».proof.Proof.Gen.KernelIdeal.Frame
import proofs.«177130_j18167711662671_1_alg».proof.Proof.KernelBody
import proofs.«177130_j18167711662671_1_alg».proof.Proof.NetworkAt

set_option maxRecDepth 16384

noncomputable section

namespace Cert.KernelIdeal.Layer1

open Idealize.ShloMosaic Idealize.ShloMosaic.TcCoe Idealize.ShloMosaic.PlainDot Idealize.SL.Sem
open Cert.KernelIdeal Cert.KernelIdeal.Gen Cert.KernelIdeal.Body
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the input's and the output's row block is the point's number, every
    other block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is row block `t` of the dense layer of the arrays as the region found them. -/
theorem flushed_eq (c : Dev nD) (t : Fin cfg1.N) :
    (dat1 V c).flushed 3 t = ((cfg1.win 3).blk t).view.read (Elt Ideal) (Cert.Gcn.affine64 (Cert.Gcn.relu (V c main_v46)) (V c main_arg4) (V c main_v47)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz, View.ld_unit_zero (S := S1x64) hz]
  obtain ⟨e0, e1, e2, e3, e4, e5, e6, e7⟩ := idx_facts t
  funext j
  show k1_pay1 (iblk1 V c 0 t) (iblk1 V c 1 t) (iblk1 V c 2 t) j = (Cert.Gcn.affine64 (Cert.Gcn.relu (V c main_v46)) (V c main_arg4) (V c main_v47)) (((cfg1.win 3).blk t).view.emb j)
  refine (pay1_apply _ _ _ j).trans ?_
  refine Eq.trans ?_ (Cert.Gcn.affine64_apply _ _ _ _).symm
  refine congrArg₂ (· + ·) (Finset.sum_congr rfl fun k _ => congrArg₂ (· * ·) ?_ ?_) ?_
  · -- the input block's row r is row 5000·t + r of the array
    show max (α := EReal) (V c main_v46 (((cfg1.win 0).blk t).view.emb (lhsAt j k))) _ = max (α := EReal) (V c main_v46 (lhsAt (((cfg1.win 3).blk t).view.emb j) k)) _
    refine congrArg (fun v : EReal => max v _) (congrArg _ (funext fun a => Fin.ext ?_))
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · -- the weight block is the whole matrix
    show V c main_arg4 (((cfg1.win 1).blk t).view.emb (rhsAt j k)) = V c main_arg4 (rhsAt (((cfg1.win 3).blk t).view.emb j) k)
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * (j 1).val = win1_3.index t (1 : Fin 2) * 64 + 1 * (j 1).val; omega
  · -- the bias block is the whole one-row matrix
    show V c main_v47 (((cfg1.win 2).blk t).view.emb (rowAt j)) = V c main_v47 (rowAt (((cfg1.win 3).blk t).view.emb j))
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega

/-- An index of the output array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v48).slice (win1_3.rect t)).set ↔ _
  rw [View.set_slice_whole, Rect.mem_set_unit]
  exact Iff.rfl

/-- Row r of the output array is in the block of point r / 5000, and every point writes its block back. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : (i 0).val / 5000 < cfg1.N := by rw [show cfg1.N = 20 from N_1]; omega
  obtain ⟨-, -, -, -, -, -, e6, e7⟩ := idx_facts ⟨(i 0).val / 5000, hN⟩
  refine ⟨⟨(i 0).val / 5000, hN⟩, flush1_3 _, ?_⟩
  rw [mem_blk]
  intro a
  match a with
  | ⟨0, _⟩ => show win1_3.index ⟨(i 0).val / 5000, hN⟩ (0 : Fin 2) * 5000 ≤ (i 0).val ∧ (i 0).val < win1_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win1_3.index ⟨(i 0).val / 5000, hN⟩ (1 : Fin 2) * 64 ≤ (i 1).val ∧ (i 1).val < win1_3.index ⟨(i 0).val / 5000, hN⟩ (1 : Fin 2) * 64 + 64; rw [e7]; omega

/-- THE OUTPUT ARRAY after the region: the dense layer of the arrays the region found. -/
theorem final (c : Dev nD) : (dat1 V c).arrAt 3 cfg1.N = Cert.Gcn.affine64 (Cert.Gcn.relu (V c main_v46)) (V c main_arg4) (V c main_v47) :=
  (dat1 V c).arrAt_eq_of_cover 3 (Cert.Gcn.affine64 (Cert.Gcn.relu (V c main_v46)) (V c main_arg4) (V c main_v47)) (fun t _ => flushed_eq V c t) (cover)

end Cert.KernelIdeal.Layer1

end
-- ==== Proof.Layer2.lean ====
/-
  Region 2 of the kernel: what its output array holds after the run.

  The region's grid has 20 points; point t loads rows 5000·t … 5000·t + 4999 of its input array, the whole weight
  matrix and the one-row bias, and writes back the same rows of its output array. A block's entry (r, c) is
  Σ_k max (x (5000·t + r, k)) 0 · W (k, c) + b (0, c), which is entry (5000·t + r, c) of the dense layer of the whole
  arrays; the 20 row blocks tile the output array, so after the last point the array IS that dense layer of the
  rectified input.
-/
import proofs.«177130_j18167711662671_1_alg».proof.Proof.Gen.KernelIdeal.Frame
import proofs.«177130_j18167711662671_1_alg».proof.Proof.KernelBody
import proofs.«177130_j18167711662671_1_alg».proof.Proof.NetworkAt

set_option maxRecDepth 16384

noncomputable section

namespace Cert.KernelIdeal.Layer2

open Idealize.ShloMosaic Idealize.ShloMosaic.TcCoe Idealize.ShloMosaic.PlainDot Idealize.SL.Sem
open Cert.KernelIdeal Cert.KernelIdeal.Gen Cert.KernelIdeal.Body
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the input's and the output's row block is the point's number, every
    other block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is row block `t` of the dense layer of the arrays as the region found them. -/
theorem flushed_eq (c : Dev nD) (t : Fin cfg2.N) :
    (dat2 V c).flushed 3 t = ((cfg2.win 3).blk t).view.read (Elt Ideal) (Cert.Gcn.affine64 (Cert.Gcn.relu (V c main_v61)) (V c main_arg6) (V c main_v62)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S1x64) hz]
  obtain ⟨e0, e1, e2, e3, e4, e5, e6, e7⟩ := idx_facts t
  funext j
  show k2_pay1 (iblk2 V c 0 t) (iblk2 V c 1 t) (iblk2 V c 2 t) j = (Cert.Gcn.affine64 (Cert.Gcn.relu (V c main_v61)) (V c main_arg6) (V c main_v62)) (((cfg2.win 3).blk t).view.emb j)
  refine (pay2_apply _ _ _ j).trans ?_
  refine Eq.trans ?_ (Cert.Gcn.affine64_apply _ _ _ _).symm
  refine congrArg₂ (· + ·) (Finset.sum_congr rfl fun k _ => congrArg₂ (· * ·) ?_ ?_) ?_
  · -- the input block's row r is row 5000·t + r of the array
    show max (α := EReal) (V c main_v61 (((cfg2.win 0).blk t).view.emb (lhsAt j k))) _ = max (α := EReal) (V c main_v61 (lhsAt (((cfg2.win 3).blk t).view.emb j) k)) _
    refine congrArg (fun v : EReal => max v _) (congrArg _ (funext fun a => Fin.ext ?_))
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * k.val = k.val; omega
  · -- the weight block is the whole matrix
    show V c main_arg6 (((cfg2.win 1).blk t).view.emb (rhsAt j k)) = V c main_arg6 (rhsAt (((cfg2.win 3).blk t).view.emb j) k)
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_3.index t (1 : Fin 2) * 64 + 1 * (j 1).val; omega
  · -- the bias block is the whole one-row matrix
    show V c main_v62 (((cfg2.win 2).blk t).view.emb (rowAt j)) = V c main_v62 (rowAt (((cfg2.win 3).blk t).view.emb j))
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_3.index t (1 : Fin 2) * 64 + 1 * (j 1).val; omega

/-- An index of the output array is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v63).slice (win2_3.rect t)).set ↔ _
  rw [View.set_slice_whole, Rect.mem_set_unit]
  exact Iff.rfl

/-- Row r of the output array is in the block of point r / 5000, and every point writes its block back. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 5000 < cfg2.N := by rw [show cfg2.N = 20 from N_2]; omega
  obtain ⟨-, -, -, -, -, -, e6, e7⟩ := idx_facts ⟨(i 0).val / 5000, hN⟩
  refine ⟨⟨(i 0).val / 5000, hN⟩, flush2_3 _, ?_⟩
  rw [mem_blk]
  intro a
  match a with
  | ⟨0, _⟩ => show win2_3.index ⟨(i 0).val / 5000, hN⟩ (0 : Fin 2) * 5000 ≤ (i 0).val ∧ (i 0).val < win2_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win2_3.index ⟨(i 0).val / 5000, hN⟩ (1 : Fin 2) * 64 ≤ (i 1).val ∧ (i 1).val < win2_3.index ⟨(i 0).val / 5000, hN⟩ (1 : Fin 2) * 64 + 64; rw [e7]; omega

/-- THE OUTPUT ARRAY after the region: the dense layer of the arrays the region found. -/
theorem final (c : Dev nD) : (dat2 V c).arrAt 3 cfg2.N = Cert.Gcn.affine64 (Cert.Gcn.relu (V c main_v61)) (V c main_arg6) (V c main_v62) :=
  (dat2 V c).arrAt_eq_of_cover 3 (Cert.Gcn.affine64 (Cert.Gcn.relu (V c main_v61)) (V c main_arg6) (V c main_v62)) (fun t _ => flushed_eq V c t) (cover)

end Cert.KernelIdeal.Layer2

end
-- ==== Proof.Layer3.lean ====
/-
  Region 3 of the kernel: what its output array holds after the run.

  The region's grid has 20 points; point t loads rows 5000·t … 5000·t + 4999 of its input array, the whole weight
  matrix and the one-row bias, and writes back the same rows of its output array. A block's entry (r, c) is
  Σ_k max (x (5000·t + r, k)) 0 · W (k, c) + b (0, c), which is entry (5000·t + r, c) of the dense layer of the whole
  arrays; the 20 row blocks tile the output array, so after the last point the array IS that dense layer of the
  rectified input.
-/
import proofs.«177130_j18167711662671_1_alg».proof.Proof.Gen.KernelIdeal.Frame
import proofs.«177130_j18167711662671_1_alg».proof.Proof.KernelBody
import proofs.«177130_j18167711662671_1_alg».proof.Proof.NetworkAt

set_option maxRecDepth 16384

noncomputable section

namespace Cert.KernelIdeal.Layer3

open Idealize.ShloMosaic Idealize.ShloMosaic.TcCoe Idealize.ShloMosaic.PlainDot Idealize.SL.Sem
open Cert.KernelIdeal Cert.KernelIdeal.Gen Cert.KernelIdeal.Body
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The windows' block indices over the grid: the input's and the output's row block is the point's number, every
    other block index is 0. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is row block `t` of the dense layer of the arrays as the region found them. -/
theorem flushed_eq (c : Dev nD) (t : Fin cfg3.N) :
    (dat3 V c).flushed 3 t = ((cfg3.win 3).blk t).view.read (Elt Ideal) (Cert.Gcn.affine40 (Cert.Gcn.relu (V c main_v76)) (V c main_arg8) (V c main_v77)) := by
  show (cfg3.win 3).cut (grid3.coords t) ((dat3 V c).after 3 t) = _
  rw [after3_3]
  unfold out3_3
  rw [View.canon_unit_zero hz]
  simp only [View.ld_unit_zero (S := S5000x64) hz, View.ld_unit_zero (S := S64x40) hz, View.ld_unit_zero (S := S1x40) hz]
  obtain ⟨e0, e1, e2, e3, e4, e5, e6, e7⟩ := idx_facts t
  funext j
  show k3_pay1 (iblk3 V c 0 t) (iblk3 V c 1 t) (iblk3 V c 2 t) j = (Cert.Gcn.affine40 (Cert.Gcn.relu (V c main_v76)) (V c main_arg8) (V c main_v77)) (((cfg3.win 3).blk t).view.emb j)
  refine (pay3_apply _ _ _ j).trans ?_
  refine Eq.trans ?_ (Cert.Gcn.affine40_apply _ _ _ _).symm
  refine congrArg₂ (· + ·) (Finset.sum_congr rfl fun k _ => congrArg₂ (· * ·) ?_ ?_) ?_
  · -- the input block's row r is row 5000·t + r of the array
    show max (α := EReal) (V c main_v76 (((cfg3.win 0).blk t).view.emb (lhsAt j k))) _ = max (α := EReal) (V c main_v76 (lhsAt (((cfg3.win 3).blk t).view.emb j) k)) _
    refine congrArg (fun v : EReal => max v _) (congrArg _ (funext fun a => Fin.ext ?_))
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * k.val = k.val; omega
  · -- the weight block is the whole matrix
    show V c main_arg8 (((cfg3.win 1).blk t).view.emb (rhsAt j k)) = V c main_arg8 (rhsAt (((cfg3.win 3).blk t).view.emb j) k)
    refine congrArg _ (funext fun a => Fin.ext ?_)
    match a with
    | ⟨0, _⟩ => show win3_1.index t (0 : Fin 2) * 64 + 1 * k.val = k.val; omega
    | ⟨1, _⟩ => show win3_1.index t (1 : Fin 2) * 40 + 1 * (j 1).val = win3_3.index t (1 : Fin 2) * 40 + 1 * (j 1).val; omega
  · -- the bias block is the whole one-row matrix
    show V c main_v77 (((cfg3.win 2).blk t).view.emb (rowAt j)) = V c main_v77 (rowAt (((cfg3.win 3).blk t).view.emb j))
    refine congrArg _ (funext fun a => Fin.ext ?_)
    match a with
    | ⟨0, _⟩ => show win3_2.index t (0 : Fin 2) * 1 + 1 * 0 = 0; omega
    | ⟨1, _⟩ => show win3_2.index t (1 : Fin 2) * 40 + 1 * (j 1).val = win3_3.index t (1 : Fin 2) * 40 + 1 * (j 1).val; omega

/-- An index of the output array is in point `t`'s block iff each coordinate is in the block's range on its axis. -/
theorem mem_blk (t : Fin cfg3.N) (i : S100000x40.Idx) :
    i ∈ ((cfg3.win 3).blk t).view.set ↔ ∀ a : Fin 2, win3_3.index t a * S5000x40.size a ≤ (i a).val ∧ (i a).val < win3_3.index t a * S5000x40.size a + S5000x40.size a := by
  show i ∈ ((View.whole main_v78).slice (win3_3.rect t)).set ↔ _
  rw [View.set_slice_whole, Rect.mem_set_unit]
  exact Iff.rfl

/-- Row r of the output array is in the block of point r / 5000, and every point writes its block back. -/
theorem cover (i : S100000x40.Idx) : ∃ t : Fin cfg3.N, (cfg3.win 3).flush t = true ∧ i ∈ ((cfg3.win 3).blk t).view.set := by
  have hi0 : (i 0).val < 100000 := (i 0).isLt
  have hi1 : (i 1).val < 40 := (i 1).isLt
  have hN : (i 0).val / 5000 < cfg3.N := by rw [show cfg3.N = 20 from N_3]; omega
  obtain ⟨-, -, -, -, -, -, e6, e7⟩ := idx_facts ⟨(i 0).val / 5000, hN⟩
  refine ⟨⟨(i 0).val / 5000, hN⟩, flush3_3 _, ?_⟩
  rw [mem_blk]
  intro a
  match a with
  | ⟨0, _⟩ => show win3_3.index ⟨(i 0).val / 5000, hN⟩ (0 : Fin 2) * 5000 ≤ (i 0).val ∧ (i 0).val < win3_3.index ⟨(i 0).val / 5000, hN⟩ (0 : Fin 2) * 5000 + 5000; rw [e6]; show (i 0).val / 5000 * 5000 ≤ (i 0).val ∧ (i 0).val < (i 0).val / 5000 * 5000 + 5000; omega
  | ⟨1, _⟩ => show win3_3.index ⟨(i 0).val / 5000, hN⟩ (1 : Fin 2) * 40 ≤ (i 1).val ∧ (i 1).val < win3_3.index ⟨(i 0).val / 5000, hN⟩ (1 : Fin 2) * 40 + 40; rw [e7]; omega

/-- THE OUTPUT ARRAY after the region: the dense layer of the arrays the region found. -/
theorem final (c : Dev nD) : (dat3 V c).arrAt 3 cfg3.N = Cert.Gcn.affine40 (Cert.Gcn.relu (V c main_v76)) (V c main_arg8) (V c main_v77) :=
  (dat3 V c).arrAt_eq_of_cover 3 (Cert.Gcn.affine40 (Cert.Gcn.relu (V c main_v76)) (V c main_arg8) (V c main_v77)) (fun t _ => flushed_eq V c t) (cover)

end Cert.KernelIdeal.Layer3

end
-- ==== Proof.KernelWalk.lean ====
/-
  The kernel's run, boundary by boundary: what the result array holds at the end.

  The kernel's @main is ten segments: three host stretches (the edge list with its self loops, the degrees and the
  edge weights, the first bias as a one-row matrix), then four dense-layer regions with a host stretch between each
  two (one aggregation and the next bias). The generated frame names the buffer contents at every boundary
  (`W0` … `W10`). Reading forward: each stretch's results are its operations composed over what the stretch was
  entered with; a region changes only its own output array, which ends as the dense layer of what the region found
  (the `Layer…` modules); the edge list, the weights and the argument arrays are written by nothing after they are
  made. So the last region's output array holds the network `Gcn.gcn` of the ten argument arrays.
-/
import proofs.«177130_j18167711662671_1_alg».proof.Proof.Gen.KernelIdeal.Frame
import proofs.«177130_j18167711662671_1_alg».proof.Proof.KernelStretches
import proofs.«177130_j18167711662671_1_alg».proof.Proof.Layer0
import proofs.«177130_j18167711662671_1_alg».proof.Proof.Layer1
import proofs.«177130_j18167711662671_1_alg».proof.Proof.Layer2
import proofs.«177130_j18167711662671_1_alg».proof.Proof.Layer3
import proofs.«177130_j18167711662671_1_alg».proof.Proof.Network

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- Region 0 writes none of them: they are not among its arrays. -/
theorem kept4 (c : Dev nD) : Kept (W3 m ρ c) (W4 m ρ c) :=
  ⟨W4_of_ne m ρ c main_v3 (by decide),
   W4_of_ne m ρ c main_v6 (by decide),
   W4_of_ne m ρ c main_v31 (by decide),
   W4_of_ne m ρ c main_arg4 (by decide),
   W4_of_ne m ρ c main_arg5 (by decide),
   W4_of_ne m ρ c main_arg6 (by decide),
   W4_of_ne m ρ c main_arg7 (by decide),
   W4_of_ne m ρ c main_arg8 (by decide),
   W4_of_ne m ρ c main_arg9 (by decide)⟩
theorem kept5 (c : Dev nD) : Kept (W3 m ρ c) (W5 m ρ c) := (kept4 m ρ c).host1

/-- Region 1 writes none of them: its weight matrix is one of its input arrays, left as found; the others are not
    among its arrays. -/
theorem kept6 (c : Dev nD) (h : Kept (W3 m ρ c) (W5 m ρ c)) : Kept (W3 m ρ c) (W6 m ρ c) :=
  ⟨(W6_of_ne m ρ c main_v3 (by decide)).trans h.v3,
   (W6_of_ne m ρ c main_v6 (by decide)).trans h.v6,
   (W6_of_ne m ρ c main_v31 (by decide)).trans h.v31,
   ((W6_arr m ρ c 1).trans (((dat1 (V5 m ρ) c).arrAt_in 1 rfl _).trans (A_eq1 (V5 m ρ) c 1))).trans h.a4,
   (W6_of_ne m ρ c main_arg5 (by decide)).trans h.a5,
   (W6_of_ne m ρ c main_arg6 (by decide)).trans h.a6,
   (W6_of_ne m ρ c main_arg7 (by decide)).trans h.a7,
   (W6_of_ne m ρ c main_arg8 (by decide)).trans h.a8,
   (W6_of_ne m ρ c main_arg9 (by decide)).trans h.a9⟩
theorem kept6' (c : Dev nD) : Kept (W3 m ρ c) (W6 m ρ c) := kept6 m ρ c (kept5 m ρ c)
theorem kept7 (c : Dev nD) : Kept (W3 m ρ c) (W7 m ρ c) := (kept6' m ρ c).host2

/-- Region 2 writes none of them: its weight matrix is one of its input arrays, left as found; the others are not
    among its arrays. -/
theorem kept8 (c : Dev nD) (h : Kept (W3 m ρ c) (W7 m ρ c)) : Kept (W3 m ρ c) (W8 m ρ c) :=
  ⟨(W8_of_ne m ρ c main_v3 (by decide)).trans h.v3,
   (W8_of_ne m ρ c main_v6 (by decide)).trans h.v6,
   (W8_of_ne m ρ c main_v31 (by decide)).trans h.v31,
   (W8_of_ne m ρ c main_arg4 (by decide)).trans h.a4,
   (W8_of_ne m ρ c main_arg5 (by decide)).trans h.a5,
   ((W8_arr m ρ c 1).trans (((dat2 (V7 m ρ) c).arrAt_in 1 rfl _).trans (A_eq2 (V7 m ρ) c 1))).trans h.a6,
   (W8_of_ne m ρ c main_arg7 (by decide)).trans h.a7,
   (W8_of_ne m ρ c main_arg8 (by decide)).trans h.a8,
   (W8_of_ne m ρ c main_arg9 (by decide)).trans h.a9⟩
theorem kept8' (c : Dev nD) : Kept (W3 m ρ c) (W8 m ρ c) := kept8 m ρ c (kept7 m ρ c)
theorem kept9 (c : Dev nD) : Kept (W3 m ρ c) (W9 m ρ c) := (kept8' m ρ c).host3

/-! ## The contents region 0 is entered with -/

theorem base_v3 (c : Dev nD) : W3 m ρ c (Proc.devRef .tc main_v3) = (Cert.Gcn.srcIdx (m ((c : Thread nD τ).loc main_arg1))) := pre_v3 (W0 m ρ c)
theorem base_v6 (c : Dev nD) : W3 m ρ c (Proc.devRef .tc main_v6) = (Cert.Gcn.dstIdx (m ((c : Thread nD τ).loc main_arg1))) := pre_v6 (W0 m ρ c)
theorem base_v31 (c : Dev nD) : W3 m ρ c (Proc.devRef .tc main_v31) = (Cert.Gcn.edgeNorm (Cert.Gcn.srcIdx (m ((c : Thread nD τ).loc main_arg1))) (Cert.Gcn.dstIdx (m ((c : Thread nD τ).loc main_arg1)))) := pre_v31 (W0 m ρ c)
theorem base_v32 (c : Dev nD) : W3 m ρ c (Proc.devRef .tc main_v32) = Cert.Gcn.row64 (m ((c : Thread nD τ).loc main_arg3)) :=
  (pre_v32 (W0 m ρ c)).trans (reshape_row64 _)
theorem base_arg0 (c : Dev nD) : W3 m ρ c (Proc.devRef .tc main_arg0) = m ((c : Thread nD τ).loc main_arg0) := pre_arg0 (W0 m ρ c)
theorem base_arg2 (c : Dev nD) : W3 m ρ c (Proc.devRef .tc main_arg2) = m ((c : Thread nD τ).loc main_arg2) := pre_arg2 (W0 m ρ c)
theorem base_arg4 (c : Dev nD) : W3 m ρ c (Proc.devRef .tc main_arg4) = m ((c : Thread nD τ).loc main_arg4) := pre_arg4 (W0 m ρ c)
theorem base_arg5 (c : Dev nD) : W3 m ρ c (Proc.devRef .tc main_arg5) = m ((c : Thread nD τ).loc main_arg5) := pre_arg5 (W0 m ρ c)
theorem base_arg6 (c : Dev nD) : W3 m ρ c (Proc.devRef .tc main_arg6) = m ((c : Thread nD τ).loc main_arg6) := pre_arg6 (W0 m ρ c)
theorem base_arg7 (c : Dev nD) : W3 m ρ c (Proc.devRef .tc main_arg7) = m ((c : Thread nD τ).loc main_arg7) := pre_arg7 (W0 m ρ c)
theorem base_arg8 (c : Dev nD) : W3 m ρ c (Proc.devRef .tc main_arg8) = m ((c : Thread nD τ).loc main_arg8) := pre_arg8 (W0 m ρ c)
theorem base_arg9 (c : Dev nD) : W3 m ρ c (Proc.devRef .tc main_arg9) = m ((c : Thread nD τ).loc main_arg9) := pre_arg9 (W0 m ρ c)

/-! ## The chain -/

/-- Layer 0's dense part. -/
def dense0 (c : Dev nD) : (⟨Cert.ReferenceIdeal.S100000x64, .f32⟩ : BufTy).Contents (Elt Ideal) :=
  Cert.Gcn.affine128 (m ((c : Thread nD τ).loc main_arg0)) (m ((c : Thread nD τ).loc main_arg2)) (Cert.Gcn.row64 (m ((c : Thread nD τ).loc main_arg3)))
/-- Layer 1's dense part, of layer 0 aggregated and rectified. -/
def dense1 (c : Dev nD) : (⟨Cert.ReferenceIdeal.S100000x64, .f32⟩ : BufTy).Contents (Elt Ideal) :=
  Cert.Gcn.affine64 (Cert.Gcn.relu (Cert.Gcn.aggregate (Cert.Gcn.srcIdx (m ((c : Thread nD τ).loc main_arg1))) (Cert.Gcn.dstIdx (m ((c : Thread nD τ).loc main_arg1))) (Cert.Gcn.edgeNorm (Cert.Gcn.srcIdx (m ((c : Thread nD τ).loc main_arg1))) (Cert.Gcn.dstIdx (m ((c : Thread nD τ).loc main_arg1)))) (dense0 m c))) (m ((c : Thread nD τ).loc main_arg4)) (Cert.Gcn.row64 (m ((c : Thread nD τ).loc main_arg5)))
/-- Layer 2's dense part. -/
def dense2 (c : Dev nD) : (⟨Cert.ReferenceIdeal.S100000x64, .f32⟩ : BufTy).Contents (Elt Ideal) :=
  Cert.Gcn.affine64 (Cert.Gcn.relu (Cert.Gcn.aggregate (Cert.Gcn.srcIdx (m ((c : Thread nD τ).loc main_arg1))) (Cert.Gcn.dstIdx (m ((c : Thread nD τ).loc main_arg1))) (Cert.Gcn.edgeNorm (Cert.Gcn.srcIdx (m ((c : Thread nD τ).loc main_arg1))) (Cert.Gcn.dstIdx (m ((c : Thread nD τ).loc main_arg1)))) (dense1 m c))) (m ((c : Thread nD τ).loc main_arg6)) (Cert.Gcn.row64 (m ((c : Thread nD τ).loc main_arg7)))

theorem at4 (c : Dev nD) : W4 m ρ c (Proc.devRef .tc main_v33) = dense0 m c := by
  refine (W4_arr m ρ c 3).trans ((Layer0.final (V3 m ρ) c).trans ?_)
  show Cert.Gcn.affine128 (W3 m ρ c (Proc.devRef .tc main_arg0)) (W3 m ρ c (Proc.devRef .tc main_arg2)) (W3 m ρ c (Proc.devRef .tc main_v32)) = _
  rw [base_arg0, base_arg2, base_v32]
  unfold dense0
  rfl

theorem at5_agg (c : Dev nD) : W5 m ρ c (Proc.devRef .tc main_v46) = Cert.Gcn.aggregate (Cert.Gcn.srcIdx (m ((c : Thread nD τ).loc main_arg1))) (Cert.Gcn.dstIdx (m ((c : Thread nD τ).loc main_arg1))) (Cert.Gcn.edgeNorm (Cert.Gcn.srcIdx (m ((c : Thread nD τ).loc main_arg1))) (Cert.Gcn.dstIdx (m ((c : Thread nD τ).loc main_arg1)))) (dense0 m c) := by
  refine (agg1 (W4 m ρ c)).trans ?_
  rw [(kept4 m ρ c).v3, (kept4 m ρ c).v6, (kept4 m ρ c).v31, base_v3, base_v6, base_v31, at4]
theorem at5_bias (c : Dev nD) : W5 m ρ c (Proc.devRef .tc main_v47) = Cert.Gcn.row64 (m ((c : Thread nD τ).loc main_arg5)) := by
  refine (bias1 (W4 m ρ c)).trans ?_
  rw [(kept4 m ρ c).a5, base_arg5]
  exact reshape_row64 _

theorem at6 (c : Dev nD) : W6 m ρ c (Proc.devRef .tc main_v48) = dense1 m c := by
  refine (W6_arr m ρ c 3).trans ((Layer1.final (V5 m ρ) c).trans ?_)
  show Cert.Gcn.affine64 (Cert.Gcn.relu (W5 m ρ c (Proc.devRef .tc main_v46))) (W5 m ρ c (Proc.devRef .tc main_arg4)) (W5 m ρ c (Proc.devRef .tc main_v47)) = _
  rw [at5_agg, at5_bias, (kept5 m ρ c).a4, base_arg4]
  unfold dense1
  rfl

theorem at7_agg (c : Dev nD) : W7 m ρ c (Proc.devRef .tc main_v61) = Cert.Gcn.aggregate (Cert.Gcn.srcIdx (m ((c : Thread nD τ).loc main_arg1))) (Cert.Gcn.dstIdx (m ((c : Thread nD τ).loc main_arg1))) (Cert.Gcn.edgeNorm (Cert.Gcn.srcIdx (m ((c : Thread nD τ).loc main_arg1))) (Cert.Gcn.dstIdx (m ((c : Thread nD τ).loc main_arg1)))) (dense1 m c) := by
  refine (agg2 (W6 m ρ c)).trans ?_
  rw [(kept6' m ρ c).v3, (kept6' m ρ c).v6, (kept6' m ρ c).v31, base_v3, base_v6, base_v31, at6]
theorem at7_bias (c : Dev nD) : W7 m ρ c (Proc.devRef .tc main_v62) = Cert.Gcn.row64 (m ((c : Thread nD τ).loc main_arg7)) := by
  refine (bias2 (W6 m ρ c)).trans ?_
  rw [(kept6' m ρ c).a7, base_arg7]
  exact reshape_row64 _

theorem at8 (c : Dev nD) : W8 m ρ c (Proc.devRef .tc main_v63) = dense2 m c := by
  refine (W8_arr m ρ c 3).trans ((Layer2.final (V7 m ρ) c).trans ?_)
  show Cert.Gcn.affine64 (Cert.Gcn.relu (W7 m ρ c (Proc.devRef .tc main_v61))) (W7 m ρ c (Proc.devRef .tc main_arg6)) (W7 m ρ c (Proc.devRef .tc main_v62)) = _
  rw [at7_agg, at7_bias, (kept7 m ρ c).a6, base_arg6]
  unfold dense2
  rfl

theorem at9_agg (c : Dev nD) : W9 m ρ c (Proc.devRef .tc main_v76) = Cert.Gcn.aggregate (Cert.Gcn.srcIdx (m ((c : Thread nD τ).loc main_arg1))) (Cert.Gcn.dstIdx (m ((c : Thread nD τ).loc main_arg1))) (Cert.Gcn.edgeNorm (Cert.Gcn.srcIdx (m ((c : Thread nD τ).loc main_arg1))) (Cert.Gcn.dstIdx (m ((c : Thread nD τ).loc main_arg1)))) (dense2 m c) := by
  refine (agg3 (W8 m ρ c)).trans ?_
  rw [(kept8' m ρ c).v3, (kept8' m ρ c).v6, (kept8' m ρ c).v31, base_v3, base_v6, base_v31, at8]
theorem at9_bias (c : Dev nD) : W9 m ρ c (Proc.devRef .tc main_v77) = Cert.Gcn.row40 (m ((c : Thread nD τ).loc main_arg9)) := by
  refine (bias3 (W8 m ρ c)).trans ?_
  rw [(kept8' m ρ c).a9, base_arg9]
  exact reshape_row40 _

/-- The network, written over the three dense parts. -/
theorem gcn_eq (c : Dev nD) :
    Cert.Gcn.gcn (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      = Cert.Gcn.affine40 (Cert.Gcn.relu (Cert.Gcn.aggregate (Cert.Gcn.srcIdx (m ((c : Thread nD τ).loc main_arg1))) (Cert.Gcn.dstIdx (m ((c : Thread nD τ).loc main_arg1))) (Cert.Gcn.edgeNorm (Cert.Gcn.srcIdx (m ((c : Thread nD τ).loc main_arg1))) (Cert.Gcn.dstIdx (m ((c : Thread nD τ).loc main_arg1)))) (dense2 m c))) (m ((c : Thread nD τ).loc main_arg8)) (Cert.Gcn.row40 (m ((c : Thread nD τ).loc main_arg9))) := by
  unfold Cert.Gcn.gcn dense2 dense1 dense0
  rfl

/-- THE RESULT ARRAY at the last boundary: the network of the ten argument arrays. -/
theorem result (c : Dev nD) : W10 m ρ c (Proc.devRef .tc main_v78)
    = Cert.Gcn.gcn (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 3).trans ((Layer3.final (V9 m ρ) c).trans ?_)
  show Cert.Gcn.affine40 (Cert.Gcn.relu (W9 m ρ c (Proc.devRef .tc main_v76))) (W9 m ρ c (Proc.devRef .tc main_arg8)) (W9 m ρ c (Proc.devRef .tc main_v77)) = _
  rw [at9_agg, at9_bias, (kept9 m ρ c).a8, base_arg8]
  exact (gcn_eq m c).symm

end Cert.KernelIdeal.Walk

end
-- ==== Proof.KernelRun.lean ====
/-
  The kernel's run with its result array named.

  The generated frame runs @main's ten segments from the launch memory and reads, of the final state, that the
  argument arrays are as launched. The same run says more: at the end every buffer outside the regions' scoped
  storage holds the last boundary's contents `W10`. Read at the result buffer as well, that is the first conjunct
  here; `Walk.result` then says what `W10` holds there.
-/
import proofs.«177130_j18167711662671_1_alg».proof.Proof.Gen.KernelIdeal.Frame
import proofs.«177130_j18167711662671_1_alg».proof.Proof.KernelWalk

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched (any float instance). -/
theorem run_named : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

/-- At the ideal instance the result array ends holding the network of the ten argument arrays. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v78) = Cert.Gcn.gcn (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (Cert.KernelIdeal.Walk.result m ρ c), (h c).2⟩) (run_named m ρ)

end Cert.KernelIdeal.Run

end
-- ==== Proof.lean ====
/-
  A three-layer graph convolution network over 100000 nodes and 1600000 edges: the kernel's program and its
  reference compute the same function of their ten arguments on the extended reals.

  Both programs build the same aggregation pattern from `edge_index` (the edge list with a self loop per node, the
  degree of every node, the weight deg(src)^(-1/2) · deg(dst)^(-1/2) of every list entry) and apply, three times,
      h ↦ aggregate (h · W + b)
  followed by an output layer h ↦ h · W + b, with max(·, 0) between the layers. They differ in where the dense
  layers run and in where the rectifier sits: the reference computes each h · W + b as one host product and
  rectifies right after the aggregation; the kernel computes it in a pallas_call over 20 row blocks of 5000 nodes
  (the product into a zero accumulator, the operands passed through bf16, which is the identity on extended reals)
  and rectifies at the start of the next dense layer. On the extended reals a block's entry is the same finite sum
  Σ_k x (r, k) · W (k, c) + b (c) as the whole product's entry, the 20 blocks tile the array, and the rectifier is
  applied to the same array either way; every other operation is the same host operation on both sides. Nothing
  is reordered, distributed or cancelled, so the precondition (finite inputs) is never used.

  * Proof/Network.lean — the network `Gcn.gcn` as named functions; Proof/NetworkAt.lean — its dense layers read at
    an index; Proof/LibPlainDot.lean — the index arithmetic of a plain matrix product.
  * Proof/RefOps.lean, Proof/RefRun.lean — the reference as a list of host operations and its run: the result is
    `Gcn.gcn` of the arguments.
  * Proof/KernelBody.lean — each kernel body's result at an index; Proof/Layer0 … Layer3.lean — each region's output
    array after the region; Proof/KernelWalk.lean — the boundary contents from the launch to the result;
    Proof/KernelRun.lean — the kernel's run: the result is `Gcn.gcn` of the arguments.
  The three frame claims are the generated frame certificates (the reference's is its run with the result dropped),
  and the idealization rewrote nothing.
-/
import proofs.«177130_j18167711662671_1_alg».proof.Defs
import proofs.«177130_j18167711662671_1_alg».proof.Proof.Gen.Kernel
import proofs.«177130_j18167711662671_1_alg».proof.Proof.Gen.Kernel.Frame
import proofs.«177130_j18167711662671_1_alg».proof.Proof.Gen.KernelIdeal
import proofs.«177130_j18167711662671_1_alg».proof.Proof.Gen.KernelIdeal.Frame
import proofs.«177130_j18167711662671_1_alg».proof.Proof.Gen.ReferenceIdeal
import proofs.«177130_j18167711662671_1_alg».proof.Proof.Gen.Pre_finite_inputs
import proofs.«177130_j18167711662671_1_alg».proof.Proof.RefRun
import proofs.«177130_j18167711662671_1_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both runs end with the result array at the network of their own arguments; the arguments agree. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
